-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S2x512x2048 : Shape := ⟨3, ![2, 512, 2048]⟩
abbrev S2048x2048 : Shape := ⟨2, ![2048, 2048]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2x512x2048 : S_.BroadcastsInDim S2x512x2048 (![] : Fin 0 → Fin S2x512x2048.rank)
  reducesTo_S2x512x2048_S_d0_1_2 : S2x512x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048x2048 .f32) (main_arg12 : FVec F S2048x2048 .f32) (main_arg13 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_v63 main_v67

def fn_part2 {F : FTy → Type} [FloatOps F] (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_v48 main_v49 main_v50

def fn_part1 {F : FTy → Type} [FloatOps F] (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S512x2048 .f32) (main_arg1 : FVec F S2x512x2048 .f32) (main_arg2 : FVec F S2048x2048 .f32) (main_arg3 : FVec F S2048x2048 .f32) (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2x512x2048 .f32 := Host.absf main_arg1
  let main_cst_0 : FVec F S_ .f32 := constant S_ .f32 0x7F800000#32
  let main_v5 : FVec F S2x512x2048 .f32 := broadcastInDim S2x512x2048 ![] bcast_S_S2x512x2048 main_cst_0
  let main_v6 : IVec S2x512x2048 1 := cmpf .olt main_v4 main_v5
  let main_c_1 : IVec S_ 1 := constantI S_ 1 1#1
  let main_v7 : IVec S_ 1 := (fun x v => Host.reduce IntOp.andi x v reducesTo_S2x512x2048_S_d0_1_2 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S512x2048 : Shape := ⟨2, ![512, 2048]⟩
abbrev S2x512x2048 : Shape := ⟨3, ![2, 512, 2048]⟩
abbrev S2048x2048 : Shape := ⟨2, ![2048, 2048]⟩
abbrev S2048 : Shape := ⟨1, ![2048]⟩
abbrev S1x512x2048 : Shape := ⟨3, ![1, 512, 2048]⟩
abbrev S1x2048 : Shape := ⟨2, ![1, 2048]⟩
abbrev S512x128 : Shape := ⟨2, ![512, 128]⟩
abbrev S2048x128 : Shape := ⟨2, ![2048, 128]⟩
abbrev S1x128 : Shape := ⟨2, ![1, 128]⟩
abbrev S2x512x128 : Shape := ⟨3, ![2, 512, 128]⟩
abbrev S1x512x128 : Shape := ⟨3, ![1, 512, 128]⟩

abbrev nBuf : Space → Nat
  | .hbm => 24
  | .vmem => 32
  | .smem => 0
  | _ => 0

abbrev bufTy : (tb : Table) → Fin (tcTables nBuf tb) → BufTy
  | .hbm, ⟨0, _⟩ => ⟨S512x2048, .f32⟩
  | .hbm, ⟨1, _⟩ => ⟨S2x512x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S1x512x2048, .f32⟩
  | .hbm, ⟨15, _⟩ => ⟨S512x2048, .f32⟩
  | .hbm, ⟨16, _⟩ => ⟨S1x512x2048, .f32⟩
  | .hbm, ⟨17, _⟩ => ⟨S512x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S512x2048, .f32⟩
  | .hbm, ⟨23, _⟩ => ⟨S2x512x2048, .f32⟩
  | .local _ .vmem, ⟨0, _⟩ => ⟨S512x2048, .f32⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S512x128, .f32⟩
  | .local _ .vmem, ⟨29, _⟩ => ⟨S512x128, .f32⟩
  | .local _ .vmem, ⟨30, _⟩ => ⟨S2x512x128, .f32⟩
  | .local _ .vmem, ⟨31, _⟩ => ⟨S2x512x128, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2x512x2048_S1x512x2048_0_0_0 : S2x512x2048.Slices ![0, 0, 0] S1x512x2048
  shapeCasts_S1x512x2048_S512x2048 : S1x512x2048.ShapeCasts S512x2048
  slices_S2x512x2048_S1x512x2048_1_0_0 : S2x512x2048.Slices ![1, 0, 0] S1x512x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  shapeCasts_S512x2048_S512x2048 : S512x2048.ShapeCasts S512x2048
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S2x512x128_S1x512x128_0_0_0 : ∀ a, (![0, 0, 0] : Fin 3 → Nat) a + S1x512x128.size a ≤ S2x512x128.size a
  h_S1x512x128 : 0 < S1x512x128.numel
  shapeCasts_S1x512x128_S512x128 : S1x512x128.ShapeCasts S512x128
  shapeCasts_S512x128_S1x512x128 : S512x128.ShapeCasts S1x512x128
  inb_S2x512x128_S1x512x128_1_0_0 : ∀ a, (![1, 0, 0] : Fin 3 → Nat) a + S1x512x128.size a ≤ S2x512x128.size a
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x2048.size a
  hwx0_2 : ∀ i : grid0.Coords, EltTy.bits .f32 = 32 ∨ (Rect.block (s := S512x2048) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x2048.size a
  hwx0_3 : ∀ i : grid0.Coords, EltTy.bits .f32 = 32 ∨ (Rect.block (s := S2048x2048) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S2048x2048.size a
  hwx0_4 : ∀ i : grid0.Coords, EltTy.bits .f32 = 32 ∨ (Rect.block (s := S2048x2048) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x2048.size a
  hwx0_5 : ∀ i : grid0.Coords, EltTy.bits .f32 = 32 ∨ (Rect.block (s := S2048x2048) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S2048x2048.size a
  hwx0_6 : ∀ i : grid0.Coords, EltTy.bits .f32 = 32 ∨ (Rect.block (s := S2048x2048) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S2048x2048.size a
  hwx0_7 : ∀ i : grid0.Coords, EltTy.bits .f32 = 32 ∨ (Rect.block (s := S2048x2048) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S2048x2048.size a
  hwx0_8 : ∀ i : grid0.Coords, EltTy.bits .f32 = 32 ∨ (Rect.block (s := S2048x2048) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S2048x2048.size a
  hwx0_9 : ∀ i : grid0.Coords, EltTy.bits .f32 = 32 ∨ (Rect.block (s := S2048x2048) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S2048x2048.size a
  hwx0_10 : ∀ i : grid0.Coords, EltTy.bits .f32 = 32 ∨ (Rect.block (s := S2048x2048) S2048x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x2048.size a
  hwx0_11 : ∀ i : grid0.Coords, EltTy.bits .f32 = 32 ∨ (Rect.block (s := S1x2048) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x2048.size a
  hwx0_12 : ∀ i : grid0.Coords, EltTy.bits .f32 = 32 ∨ (Rect.block (s := S1x2048) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x2048.size a
  hwx0_13 : ∀ i : grid0.Coords, EltTy.bits .f32 = 32 ∨ (Rect.block (s := S1x2048) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x2048.size a
  hwx0_14 : ∀ i : grid0.Coords, EltTy.bits .f32 = 32 ∨ (Rect.block (s := S1x2048) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x128.size a ≤ S512x2048.size a
  hwx0_15 : ∀ i : grid0.Coords, EltTy.bits .f32 = 32 ∨ (Rect.block (s := S512x2048) S512x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2x512x128.size a ≤ S2x512x2048.size a
  hwx0_16 : ∀ i : grid0.Coords, EltTy.bits .f32 = 32 ∨ (Rect.block (s := S2x512x2048) S2x512x128.size (cc0_transform_16 i) (hinb0_16 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S2048x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S2048x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S2048x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v8_0) S512x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v8_1) S2x512x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S512x2048 : Shape := ⟨2, ![512, 2048]⟩
abbrev S2x512x2048 : Shape := ⟨3, ![2, 512, 2048]⟩
abbrev S2048x2048 : Shape := ⟨2, ![2048, 2048]⟩
abbrev S2048 : Shape := ⟨1, ![2048]⟩
abbrev S1x512x2048 : Shape := ⟨3, ![1, 512, 2048]⟩
abbrev S1x2048 : Shape := ⟨2, ![1, 2048]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x512x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S1x512x2048, .f32⟩
  | .hbm, ⟨15, _⟩ => ⟨S512x2048, .f32⟩
  | .hbm, ⟨16, _⟩ => ⟨S1x512x2048, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S1x2048, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S1x2048, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S_, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S512x2048, .f32⟩
  | .hbm, ⟨48, _⟩ => ⟨S512x2048, .f32⟩
  | .hbm, ⟨49, _⟩ => ⟨S1x2048, .f32⟩
  | .hbm, ⟨50, _⟩ => ⟨S512x2048, .f32⟩
  | .hbm, ⟨51, _⟩ => ⟨S512x2048, .f32⟩
  | .hbm, ⟨52, _⟩ => ⟨S512x2048, .f32⟩
  | .hbm, ⟨53, _⟩ => ⟨S512x2048, .f32⟩
  | .hbm, ⟨54, _⟩ => ⟨S_, .f32⟩
  | .hbm, ⟨55, _⟩ => ⟨S512x2048, .f32⟩
  | .hbm, ⟨56, _⟩ => ⟨S512x2048, .f32⟩
  | .hbm, ⟨57, _⟩ => ⟨S_, .f32⟩
  | .hbm, ⟨58, _⟩ => ⟨S512x2048, .f32⟩
  | .hbm, ⟨59, _⟩ => ⟨S512x2048, .f32⟩
  | .hbm, ⟨60, _⟩ => ⟨S512x2048, .f32⟩
  | .hbm, ⟨61, _⟩ => ⟨S512x2048, .f32⟩
  | .hbm, ⟨62, _⟩ => ⟨S512x2048, .f32⟩
  | .hbm, ⟨63, _⟩ => ⟨S1x2048, .f32⟩
  | .hbm, ⟨64, _⟩ => ⟨S512x2048, .f32⟩
  | .hbm, ⟨65, _⟩ => ⟨S512x2048, .f32⟩
  | .hbm, ⟨66, _⟩ => ⟨S512x2048, .f32⟩
  | .hbm, ⟨67, _⟩ => ⟨S512x2048, .f32⟩
  | .hbm, ⟨68, _⟩ => ⟨S512x2048, .f32⟩
  | .hbm, ⟨69, _⟩ => ⟨S512x2048, .f32⟩
  | .hbm, ⟨70, _⟩ => ⟨S512x2048, .f32⟩
  | .hbm, ⟨71, _⟩ => ⟨S512x2048, .f32⟩
  | .hbm, ⟨72, _⟩ => ⟨S1x512x2048, .f32⟩
  | .hbm, ⟨73, _⟩ => ⟨S1x512x2048, .f32⟩
  | .hbm, ⟨74, _⟩ => ⟨S2x512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  slices_S2x512x2048_S1x512x2048_0_0_0 : S2x512x2048.Slices ![0, 0, 0] S1x512x2048
  shapeCasts_S1x512x2048_S512x2048 : S1x512x2048.ShapeCasts S512x2048
  slices_S2x512x2048_S1x512x2048_1_0_0 : S2x512x2048.Slices ![1, 0, 0] S1x512x2048
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  bcast_S_S512x2048 : S_.BroadcastsInDim S512x2048 (![] : Fin 0 → Fin S512x2048.rank)
  bcast_S512x2048_S1x512x2048_1_2 : S512x2048.BroadcastsInDim S1x512x2048 (![1, 2] : Fin 2 → Fin S1x512x2048.rank)
  concatenates_S1x512x2048_S1x512x2048_S2x512x2048_d0 : Shape.Concatenates [S1x512x2048, S1x512x2048] S2x512x2048 0
  dot_S512x2048_S2048x2048_S512x2048_1_0_0_1_n_n_wf : DotDims.WF S512x2048 S2048x2048 S512x2048 [1] [0] [0] [1] [] []

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

class Facts : Prop extends Facts₀ where

variable [Facts]
-- ==== Proof.LstmCell.lean ====
/-
  One step of an LSTM cell over the extended reals, entry by entry.

  The arguments are the input `X : [512, 2048]`, the two stacked states `St : [2, 512, 2048]` (slab 0 feeds the
  recurrent products, slab 1 is mixed into the new cell), and for each of the four gates an input weight
  `W : [2048, 2048]`, a recurrent weight `U : [2048, 2048]` and a bias `b : [2048]`. At row `r` and column `c`:

    pre(W, U, b)  = (Σₖ X[r, k] · W[k, c]  +  Σₖ St[0, r, k] · U[k, c])  +  b[c]
    cell          = σ(pre_f) · St[1, r, c]  +  σ(pre_i) · tanh(pre_c)
    hidden        = σ(pre_g) · tanh(cell)

  with σ(x) = 1 / (1 + e⁻ˣ). The two results are the array of `cell` and the stack `[hidden, cell]`.
  The sums, the sigmoid and the hyperbolic tangent are taken on the extended reals exactly as written: no law of
  arithmetic is used to rearrange them, so nothing here asks the entries to be finite.
-/
import Idealize.ShloMosaic.Lib.ValueIdx
import Idealize.ShloMosaic.PureOps.Ideal

noncomputable section

open scoped BigOperators

namespace Cert.LstmCell

open Idealize.ShloMosaic Idealize.ShloMosaic.ValueIdx

/-- The float word `0x3F800000` denotes the number one. -/
theorem one_word : Ideal.ofBits .f32 0x3F800000#32 = 1 := by
  simp [Ideal.ofBits, Ideal.ieee, -EReal.coe_mul]; norm_num

/-- The sigmoid spelled out with that word for its two ones is the sigmoid. -/
theorem sigmoid_spelled (x : EReal) :
    Ideal.div (Ideal.ofBits .f32 0x3F800000#32) (Ideal.ofBits .f32 0x3F800000#32 + Ideal.exp (-x)) = Ideal.logistic x := by
  rw [one_word]; rfl

section Cell

variable (X : FVec Ideal ⟨2, ![512, 2048]⟩ .f32) (St : FVec Ideal ⟨3, ![2, 512, 2048]⟩ .f32)

/-- A gate before its nonlinearity: the input's and the first state's products with the gate's weights, then the bias. -/
def pre (W U : FVec Ideal ⟨2, ![2048, 2048]⟩ .f32) (b : FVec Ideal ⟨1, ![2048]⟩ .f32) (r : Fin 512) (c : Fin 2048) : EReal :=
  (∑ k : Fin 2048, X (ix2 r k) * W (ix2 k c) + ∑ k : Fin 2048, St (ix3 (0 : Fin 2) r k) * U (ix2 k c)) + b (ix1 c)

variable (Wi Ui : FVec Ideal ⟨2, ![2048, 2048]⟩ .f32) (bi : FVec Ideal ⟨1, ![2048]⟩ .f32)
  (Wf Uf : FVec Ideal ⟨2, ![2048, 2048]⟩ .f32) (bf : FVec Ideal ⟨1, ![2048]⟩ .f32)

/-- The new cell: the forget gate times the second state, plus the input gate times the candidate. -/
def cell (Wc Uc : FVec Ideal ⟨2, ![2048, 2048]⟩ .f32) (bc : FVec Ideal ⟨1, ![2048]⟩ .f32) (r : Fin 512) (c : Fin 2048) : EReal :=
  Ideal.logistic (pre X St Wf Uf bf r c) * St (ix3 (1 : Fin 2) r c)
    + Ideal.logistic (pre X St Wi Ui bi r c) * Ideal.tanh (pre X St Wc Uc bc r c)

/-- The new hidden state: the output gate times the hyperbolic tangent of the new cell. -/
def hidden (Wg Ug : FVec Ideal ⟨2, ![2048, 2048]⟩ .f32) (bg : FVec Ideal ⟨1, ![2048]⟩ .f32)
    (Wc Uc : FVec Ideal ⟨2, ![2048, 2048]⟩ .f32) (bc : FVec Ideal ⟨1, ![2048]⟩ .f32) (r : Fin 512) (c : Fin 2048) : EReal :=
  Ideal.logistic (pre X St Wg Ug bg r c) * Ideal.tanh (cell X St Wi Ui bi Wf Uf bf Wc Uc bc r c)

/-- The first result: the array of new cells. -/
def cellArr (Wc Uc : FVec Ideal ⟨2, ![2048, 2048]⟩ .f32) (bc : FVec Ideal ⟨1, ![2048]⟩ .f32) :
    FVec Ideal ⟨2, ![512, 2048]⟩ .f32 :=
  fun i => cell X St Wi Ui bi Wf Uf bf Wc Uc bc (i 0) (i 1)

/-- The second result: the new hidden state stacked on the new cell. -/
def stackArr (Wg Ug : FVec Ideal ⟨2, ![2048, 2048]⟩ .f32) (bg : FVec Ideal ⟨1, ![2048]⟩ .f32)
    (Wc Uc : FVec Ideal ⟨2, ![2048, 2048]⟩ .f32) (bc : FVec Ideal ⟨1, ![2048]⟩ .f32) :
    FVec Ideal ⟨3, ![2, 512, 2048]⟩ .f32 :=
  fun i => if (i 0).val = 0 then hidden X St Wi Ui bi Wf Uf bf Wg Ug bg Wc Uc bc (i 1) (i 2)
    else cell X St Wi Ui bi Wf Uf bf Wc Uc bc (i 1) (i 2)

/-- The array of new cells at an index with coordinates `r`, `c`. -/
theorem cellArr_at (Wc Uc : FVec Ideal ⟨2, ![2048, 2048]⟩ .f32) (bc : FVec Ideal ⟨1, ![2048]⟩ .f32)
    (i : (⟨2, ![512, 2048]⟩ : Shape).Idx) (r : Fin 512) (c : Fin 2048) (h0 : i 0 = r) (h1 : i 1 = c) :
    cellArr X St Wi Ui bi Wf Uf bf Wc Uc bc i = cell X St Wi Ui bi Wf Uf bf Wc Uc bc r c := by
  unfold cellArr; rw [h0, h1]

/-- The stack at an index of slab 0 is the new hidden state. -/
theorem stackArr_at_zero (Wg Ug : FVec Ideal ⟨2, ![2048, 2048]⟩ .f32) (bg : FVec Ideal ⟨1, ![2048]⟩ .f32)
    (Wc Uc : FVec Ideal ⟨2, ![2048, 2048]⟩ .f32) (bc : FVec Ideal ⟨1, ![2048]⟩ .f32)
    (i : (⟨3, ![2, 512, 2048]⟩ : Shape).Idx) (r : Fin 512) (c : Fin 2048)
    (h0 : (i 0).val = 0) (h1 : i 1 = r) (h2 : i 2 = c) :
    stackArr X St Wi Ui bi Wf Uf bf Wg Ug bg Wc Uc bc i = hidden X St Wi Ui bi Wf Uf bf Wg Ug bg Wc Uc bc r c := by
  unfold stackArr; rw [if_pos h0, h1, h2]

/-- The stack at an index of slab 1 is the new cell. -/
theorem stackArr_at_one (Wg Ug : FVec Ideal ⟨2, ![2048, 2048]⟩ .f32) (bg : FVec Ideal ⟨1, ![2048]⟩ .f32)
    (Wc Uc : FVec Ideal ⟨2, ![2048, 2048]⟩ .f32) (bc : FVec Ideal ⟨1, ![2048]⟩ .f32)
    (i : (⟨3, ![2, 512, 2048]⟩ : Shape).Idx) (r : Fin 512) (c : Fin 2048)
    (h0 : (i 0).val = 1) (h1 : i 1 = r) (h2 : i 2 = c) :
    stackArr X St Wi Ui bi Wf Uf bf Wg Ug bg Wc Uc bc i = cell X St Wi Ui bi Wf Uf bf Wc Uc bc r c := by
  unfold stackArr; rw [if_neg (by omega), h1, h2]

end Cell

end Cert.LstmCell

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.KernelBlock.lean ====
/-
  One grid point of the kernel, entry by entry.

  At a grid point the body holds the whole input `X` and the whole first state, and one block of 128 columns of the
  second state, of the eight weight matrices and of the four bias rows. Suppose that in row `r` and lane `l` those
  blocks hold the arrays' entries of row `r` and of one column `c` (`Holds`: the inputs' rows whole, the weights'
  columns whole, the second state and the biases at the single entry). Then each gate's block sum is the gate of
  `LstmCell` at `(r, c)`: a block product into the zero accumulator is the sum over the contracted axis, a narrowing
  of the operands' format changes no extended real, and the bias row is broadcast down the rows. The three values the
  body stores are then `LstmCell.cell` (twice: alone, and as slab 1 of the stacked block) and `LstmCell.hidden`
  (slab 0 of the stacked block) at `(r, c)`.
-/
import proofs.«137886_j71270687310298_2_alg».proof.Proof.Gen.KernelIdeal.Skeleton
import proofs.«137886_j71270687310298_2_alg».proof.Proof.LstmCell
import proofs.«137886_j71270687310298_2_alg».proof.Proof.LibDotRows
import Idealize.ShloMosaic.Lib.Pipeline.Value
import Idealize.ShloMosaic.Lib.ValueIdx
import Idealize.ShloMosaic.Lib.ValueLayout

noncomputable section

open scoped BigOperators

namespace Cert.KernelIdeal.Block

open Cert.KernelIdeal Cert.KernelIdeal.Gen
open Idealize.ShloMosaic Idealize.ShloMosaic.ValueIdx

/-- A block product of the kernel into the zero accumulator, operands narrowed: the sum over the contracted axis. -/
theorem product_apply (x : Vec Ideal S512x2048 .f32) (w : Vec Ideal S2048x128 .f32) (r : Fin 512) (l : Fin 128) :
    (matmul (F := Ideal) dot_S512x2048_S2048x128_S512x128_1_0_0_1_n_n none (truncf .bf16 x bitsLt_bf16_f32)
        (truncf .bf16 w bitsLt_bf16_f32) (constant S512x128 .f32 0x00000000#32) : FVec Ideal S512x128 .f32) (ix2 r l)
      = ∑ k : Fin 2048, x (ix2 r k) * w (ix2 k l) := by
  show matmul (F := Ideal) (DotDims.plain 512 2048 128) none (truncf .bf16 x bitsLt_bf16_f32)
      (truncf .bf16 w bitsLt_bf16_f32) (constant ⟨2, ![512, 128]⟩ .f32 0x00000000#32) (ix2 r l) = _
  exact Cert.Lib.DotRows.matmul_plain_apply _ _ r l

section Gate

variable (X : FVec Ideal S512x2048 .f32) (St : FVec Ideal S2x512x2048 .f32)

/-- ONE GATE on blocks is the gate of the whole arrays at `(r, c)`, when the blocks hold row `r` of the input and of
    the first state, column `c` of the two weights in lane `l`, and the bias of column `c` in lane `l`. -/
theorem gate_block (W U : FVec Ideal S2048x2048 .f32) (b : FVec Ideal S2048 .f32)
    (x p : Vec Ideal S512x2048 .f32) (w u : Vec Ideal S2048x128 .f32) (bb : Vec Ideal S1x128 .f32)
    (r : Fin 512) (l : Fin 128) (c : Fin 2048)
    (hx : ∀ k : Fin 2048, x (ix2 r k) = X (ix2 r k))
    (hp : ∀ k : Fin 2048, p (ix2 r k) = St (ix3 (0 : Fin 2) r k))
    (hw : ∀ k : Fin 2048, w (ix2 k l) = W (ix2 k c))
    (hu : ∀ k : Fin 2048, u (ix2 k l) = U (ix2 k c))
    (hb : bb (ix2 (0 : Fin 1) l) = b (ix1 c)) :
    k0_pay7 (F := Ideal) x p w u bb (ix2 r l) = Cert.LstmCell.pre X St W U b r c := by
  unfold k0_pay7 k0_pay4 k0_pay5
  show ((matmul (F := Ideal) dot_S512x2048_S2048x128_S512x128_1_0_0_1_n_n none (truncf .bf16 x bitsLt_bf16_f32)
          (truncf .bf16 w bitsLt_bf16_f32) (constant S512x128 .f32 0x00000000#32) : FVec Ideal S512x128 .f32) (ix2 r l)
      + (matmul (F := Ideal) dot_S512x2048_S2048x128_S512x128_1_0_0_1_n_n none
          (truncf .bf16 (shapeCast S512x2048 p shapeCasts_S512x2048_S512x2048) bitsLt_bf16_f32)
          (truncf .bf16 u bitsLt_bf16_f32) (constant S512x128 .f32 0x00000000#32) : FVec Ideal S512x128 .f32) (ix2 r l))
      + broadcastTo S512x128 (shapeCast S1x128 bb shapeCasts_S1x128_S1x128) broadcasts_S1x128_S512x128 (ix2 r l) = _
  rw [shapeCast_self, shapeCast_self, product_apply, product_apply, broadcastTo_1b_ab_apply, hb]
  unfold Cert.LstmCell.pre
  congr 2
  · exact Finset.sum_congr rfl fun k _ => by rw [hx k, hw k]
  · exact Finset.sum_congr rfl fun k _ => by rw [hp k, hu k]

end Gate

/-- What the fifteen input blocks at a grid point hold in row `r` and lane `l`, against the fourteen arrays at
    row `r` and column `c`. -/
structure Holds (X : FVec Ideal S512x2048 .f32) (St : FVec Ideal S2x512x2048 .f32)
    (Wi Ui : FVec Ideal S2048x2048 .f32) (bi : FVec Ideal S2048 .f32)
    (Wf Uf : FVec Ideal S2048x2048 .f32) (bf : FVec Ideal S2048 .f32)
    (Wg Ug : FVec Ideal S2048x2048 .f32) (bg : FVec Ideal S2048 .f32)
    (Wc Uc : FVec Ideal S2048x2048 .f32) (bc : FVec Ideal S2048 .f32)
    (x0 x1 : Vec Ideal S512x2048 .f32) (x2 : Vec Ideal S512x128 .f32)
    (x3 x4 x5 x6 x7 x8 x9 x10 : Vec Ideal S2048x128 .f32) (x11 x12 x13 x14 : Vec Ideal S1x128 .f32)
    (r : Fin 512) (l : Fin 128) (c : Fin 2048) : Prop where
  input : ∀ k : Fin 2048, x0 (ix2 r k) = X (ix2 r k)
  first : ∀ k : Fin 2048, x1 (ix2 r k) = St (ix3 (0 : Fin 2) r k)
  second : x2 (ix2 r l) = St (ix3 (1 : Fin 2) r c)
  wi : ∀ k : Fin 2048, x3 (ix2 k l) = Wi (ix2 k c)
  wf : ∀ k : Fin 2048, x4 (ix2 k l) = Wf (ix2 k c)
  wg : ∀ k : Fin 2048, x5 (ix2 k l) = Wg (ix2 k c)
  wc : ∀ k : Fin 2048, x6 (ix2 k l) = Wc (ix2 k c)
  ui : ∀ k : Fin 2048, x7 (ix2 k l) = Ui (ix2 k c)
  uf : ∀ k : Fin 2048, x8 (ix2 k l) = Uf (ix2 k c)
  ug : ∀ k : Fin 2048, x9 (ix2 k l) = Ug (ix2 k c)
  uc : ∀ k : Fin 2048, x10 (ix2 k l) = Uc (ix2 k c)
  bi : x11 (ix2 (0 : Fin 1) l) = bi (ix1 c)
  bf : x12 (ix2 (0 : Fin 1) l) = bf (ix1 c)
  bg : x13 (ix2 (0 : Fin 1) l) = bg (ix1 c)
  bc : x14 (ix2 (0 : Fin 1) l) = bc (ix1 c)

section Stores

variable {X : FVec Ideal S512x2048 .f32} {St : FVec Ideal S2x512x2048 .f32}
  {Wi Ui : FVec Ideal S2048x2048 .f32} {bi : FVec Ideal S2048 .f32}
  {Wf Uf : FVec Ideal S2048x2048 .f32} {bf : FVec Ideal S2048 .f32}
  {Wg Ug : FVec Ideal S2048x2048 .f32} {bg : FVec Ideal S2048 .f32}
  {Wc Uc : FVec Ideal S2048x2048 .f32} {bc : FVec Ideal S2048 .f32}
  {x0 x1 : Vec Ideal S512x2048 .f32} {x2 : Vec Ideal S512x128 .f32}
  {x3 x4 x5 x6 x7 x8 x9 x10 : Vec Ideal S2048x128 .f32} {x11 x12 x13 x14 : Vec Ideal S1x128 .f32}
  {r : Fin 512} {l : Fin 128} {c : Fin 2048}

/-- THE NEW CELL the body computes, at `(r, l)`, is `LstmCell.cell` at `(r, c)`. -/
theorem cell_block (h : Holds X St Wi Ui bi Wf Uf bf Wg Ug bg Wc Uc bc x0 x1 x2 x3 x4 x5 x6 x7 x8 x9 x10 x11 x12 x13 x14 r l c) :
    k0_pay1 (F := Ideal) (k0_pay4 x0) (k0_pay5 x1) (k0_pay6 x2) (k0_pay7 x0 x1 x3 x7 x11) (k0_pay8 x0 x1 x4 x8 x12)
        x6 x10 x14 (ix2 r l)
      = Cert.LstmCell.cell X St Wi Ui bi Wf Uf bf Wc Uc bc r c := by
  show Ideal.logistic (k0_pay7 (F := Ideal) x0 x1 x4 x8 x12 (ix2 r l))
        * shapeCast S512x128 x2 shapeCasts_S512x128_S512x128 (ix2 r l)
      + Ideal.logistic (k0_pay7 (F := Ideal) x0 x1 x3 x7 x11 (ix2 r l))
        * Ideal.tanh (k0_pay7 (F := Ideal) x0 x1 x6 x10 x14 (ix2 r l)) = _
  rw [shapeCast_self, h.second,
    gate_block X St Wf Uf bf x0 x1 x4 x8 x12 r l c h.input h.first h.wf h.uf h.bf,
    gate_block X St Wi Ui bi x0 x1 x3 x7 x11 r l c h.input h.first h.wi h.ui h.bi,
    gate_block X St Wc Uc bc x0 x1 x6 x10 x14 r l c h.input h.first h.wc h.uc h.bc]
  rfl

/-- THE NEW HIDDEN STATE the body stores into slab 0 of the stacked block. -/
theorem hidden_block (h : Holds X St Wi Ui bi Wf Uf bf Wg Ug bg Wc Uc bc x0 x1 x2 x3 x4 x5 x6 x7 x8 x9 x10 x11 x12 x13 x14 r l c) :
    k0_pay2 (F := Ideal) (k0_pay4 x0) (k0_pay5 x1) (k0_pay6 x2) (k0_pay7 x0 x1 x3 x7 x11) (k0_pay8 x0 x1 x4 x8 x12)
        (k0_pay9 x5) (k0_pay10 x9) x13 x6 x10 x14 (ix3 (0 : Fin 1) r l)
      = Cert.LstmCell.hidden X St Wi Ui bi Wf Uf bf Wg Ug bg Wc Uc bc r c := by
  unfold k0_pay2
  refine (shapeCast_ab_1ab_apply _ shapeCasts_S512x128_S1x512x128 (0 : Fin 1) r l).trans ?_
  show Ideal.logistic (k0_pay7 (F := Ideal) x0 x1 x5 x9 x13 (ix2 r l))
      * Ideal.tanh (k0_pay1 (F := Ideal) (k0_pay4 x0) (k0_pay5 x1) (k0_pay6 x2) (k0_pay7 x0 x1 x3 x7 x11)
          (k0_pay8 x0 x1 x4 x8 x12) x6 x10 x14 (ix2 r l)) = _
  rw [cell_block h, gate_block X St Wg Ug bg x0 x1 x5 x9 x13 r l c h.input h.first h.wg h.ug h.bg]
  rfl

/-- The new cell again, as the body stores it into slab 1 of the stacked block. -/
theorem cell_slab_block (h : Holds X St Wi Ui bi Wf Uf bf Wg Ug bg Wc Uc bc x0 x1 x2 x3 x4 x5 x6 x7 x8 x9 x10 x11 x12 x13 x14 r l c) :
    k0_pay3 (F := Ideal) (k0_pay4 x0) (k0_pay5 x1) (k0_pay6 x2) (k0_pay7 x0 x1 x3 x7 x11) (k0_pay8 x0 x1 x4 x8 x12)
        x6 x10 x14 (ix3 (0 : Fin 1) r l)
      = Cert.LstmCell.cell X St Wi Ui bi Wf Uf bf Wc Uc bc r c := by
  unfold k0_pay3
  exact (shapeCast_ab_1ab_apply _ shapeCasts_S512x128_S1x512x128 (0 : Fin 1) r l).trans (cell_block h)

end Stores

end Cert.KernelIdeal.Block

end
-- ==== Proof.LibStackSlabs.lean ====
/-
  Slabs of a stacked array, and a vector laid out as rows, read at an index.

  An array `[S, A, B]` is a stack of `S` slabs `[A, B]`. Its unit-stride cut of extent `[1, A, B]` at offset
  `(s, 0, 0)` reads the array at `(s, a, b)` in position `(0, a, b)`, so the cut viewed as `[A, B]` reads `(s, a, b)`
  at `(a, b)`. A matrix `[A, B]` given a leading unit axis by a broadcast that keeps its two axes second and third
  reads `(a, b)` at `(0, a, b)`. Two pieces `[1, A, B]` joined along the leading axis form `[2, A, B]`, which reads
  the first piece in slab 0 and the second in slab 1. A vector `[N]` placed as the one row of `[1, N]` by a broadcast
  reads `c` at `(0, c)`, and a row `[1, N]` broadcast down `R` rows reads `(0, c)` at every `(r, c)`.
  All extents are arbitrary; nothing here is arithmetic on the entries.
-/
import Idealize.ShloMosaic.Lib.Pipeline.Value
import Idealize.ShloMosaic.Lib.ValueIdx
import Idealize.ShloMosaic.Lib.ValueLayout

noncomputable section

namespace Cert.LibStackSlabs

open Idealize.ShloMosaic Idealize.ShloMosaic.ValueIdx

variable {α : Type}

/-- The cut `[1, A, B]` of `[S, A, B]` at offset `(s, 0, 0)` reads `(s, a, b)` at `(0, a, b)`. -/
theorem cut_slab_apply {S A B : Nat} (off : Fin 3 → Nat) (x : (⟨3, ![S, A, B]⟩ : Shape).Idx → α)
    (h : (⟨3, ![S, A, B]⟩ : Shape).Slices off ⟨3, ![1, A, B]⟩) (s : Fin S)
    (h0 : off 0 = s.val) (h1 : off 1 = 0) (h2 : off 2 = 0) (a : Fin A) (b : Fin B) :
    extractStridedSlice ⟨3, ![1, A, B]⟩ off x h (ix3 (0 : Fin 1) a b) = x (ix3 s a b) := by
  refine extractStridedSlice_apply off x h _ _ fun k => ?_
  match k with
  | ⟨0, _⟩ => show s.val = off 0 + 0; omega
  | ⟨1, _⟩ => show a.val = off 1 + a.val; omega
  | ⟨2, _⟩ => show b.val = off 2 + b.val; omega

/-- Slab `s` of `[S, A, B]`, cut out and viewed as `[A, B]`, reads `(s, a, b)` at `(a, b)`. -/
theorem slab_apply {S A B : Nat} (off : Fin 3 → Nat) (x : (⟨3, ![S, A, B]⟩ : Shape).Idx → α)
    (h : (⟨3, ![S, A, B]⟩ : Shape).Slices off ⟨3, ![1, A, B]⟩)
    (hc : (⟨3, ![1, A, B]⟩ : Shape).ShapeCasts ⟨2, ![A, B]⟩) (s : Fin S)
    (h0 : off 0 = s.val) (h1 : off 1 = 0) (h2 : off 2 = 0) (a : Fin A) (b : Fin B) :
    shapeCast ⟨2, ![A, B]⟩ (extractStridedSlice ⟨3, ![1, A, B]⟩ off x h) hc (ix2 a b) = x (ix3 s a b) :=
  (shapeCast_1ab_ab_apply _ hc a b).trans (cut_slab_apply off x h s h0 h1 h2 a b)

/-- A matrix `[A, B]` broadcast to `[1, A, B]` with its axes kept second and third reads `(a, b)` at `(0, a, b)`. -/
theorem lead_bcast_apply {A B : Nat} (v : (⟨2, ![A, B]⟩ : Shape).Idx → α)
    (h : (⟨2, ![A, B]⟩ : Shape).BroadcastsInDim ⟨3, ![1, A, B]⟩ ![1, 2]) (a : Fin A) (b : Fin B) :
    broadcastInDim ⟨3, ![1, A, B]⟩ ![1, 2] h v (ix3 (0 : Fin 1) a b) = v (ix2 a b) := by
  refine broadcastInDim_apply _ h v _ _ fun k => ?_
  match k with
  | ⟨0, _⟩ =>
    show a.val = if A = 1 then 0 else a.val
    split
    · have := a.isLt; omega
    · rfl
  | ⟨1, _⟩ =>
    show b.val = if B = 1 then 0 else b.val
    split
    · have := b.isLt; omega
    · rfl

/-- Two pieces `[1, A, B]` joined along the leading axis: slab 0 is the first piece. -/
theorem stack2_fst {A B : Nat} (x₁ x₂ : (⟨3, ![1, A, B]⟩ : Shape).Idx → α)
    (h : Shape.Concatenates [(⟨3, ![1, A, B]⟩ : Shape), ⟨3, ![1, A, B]⟩] ⟨3, ![2, A, B]⟩ 0) (a : Fin A) (b : Fin B) :
    concatenate ⟨3, ![2, A, B]⟩ 0 [⟨⟨3, ![1, A, B]⟩, x₁⟩, ⟨⟨3, ![1, A, B]⟩, x₂⟩] h (ix3 (0 : Fin 2) a b)
      = x₁ (ix3 (0 : Fin 1) a b) :=
  concatenate_pair_apply_left 0 x₁ x₂ h _ rfl _ fun k => by
    match k with
    | ⟨0, _⟩ => rfl
    | ⟨1, _⟩ => rfl
    | ⟨2, _⟩ => rfl

/-- … and slab 1 is the second piece. -/
theorem stack2_snd {A B : Nat} (x₁ x₂ : (⟨3, ![1, A, B]⟩ : Shape).Idx → α)
    (h : Shape.Concatenates [(⟨3, ![1, A, B]⟩ : Shape), ⟨3, ![1, A, B]⟩] ⟨3, ![2, A, B]⟩ 0) (a : Fin A) (b : Fin B) :
    concatenate ⟨3, ![2, A, B]⟩ 0 [⟨⟨3, ![1, A, B]⟩, x₁⟩, ⟨⟨3, ![1, A, B]⟩, x₂⟩] h (ix3 (1 : Fin 2) a b)
      = x₂ (ix3 (0 : Fin 1) a b) :=
  concatenate_pair_apply_right 0 x₁ x₂ h _ rfl rfl _
    (fun k hk => by
      match k with
      | ⟨0, _⟩ => exact absurd rfl hk
      | ⟨1, _⟩ => rfl
      | ⟨2, _⟩ => rfl)
    rfl

/-- A vector `[N]` placed as the row of `[1, N]` reads `c` at `(0, c)`. -/
theorem row_bcast_apply {N : Nat} (v : (⟨1, ![N]⟩ : Shape).Idx → α)
    (h : (⟨1, ![N]⟩ : Shape).BroadcastsInDim ⟨2, ![1, N]⟩ ![1]) (c : Fin N) :
    broadcastInDim ⟨2, ![1, N]⟩ ![1] h v (ix2 (0 : Fin 1) c) = v (ix1 c) := by
  refine broadcastInDim_apply _ h v _ _ fun k => ?_
  match k with
  | ⟨0, _⟩ =>
    show c.val = if N = 1 then 0 else c.val
    split
    · have := c.isLt; omega
    · rfl

/-- A row `[1, N]` broadcast down `R` rows reads `(0, c)` at every `(r, c)`. -/
theorem rows_bcast_apply {R N : Nat} (v : (⟨2, ![1, N]⟩ : Shape).Idx → α)
    (h : (⟨2, ![1, N]⟩ : Shape).BroadcastsInDim ⟨2, ![R, N]⟩ ![0, 1]) (r : Fin R) (c : Fin N) :
    broadcastInDim ⟨2, ![R, N]⟩ ![0, 1] h v (ix2 r c) = v (ix2 (0 : Fin 1) c) := by
  refine broadcastInDim_apply _ h v _ _ fun k => ?_
  match k with
  | ⟨0, _⟩ => show 0 = if (1 : Nat) = 1 then 0 else r.val; rw [if_pos rfl]
  | ⟨1, _⟩ =>
    show c.val = if N = 1 then 0 else c.val
    split
    · have := c.isLt; omega
    · rfl

end Cert.LibStackSlabs

end
-- ==== Proof.KernelReads.lean ====
/-
  What each window's block holds at a grid point, read off the arguments.

  The grid has sixteen points; point `t` works on columns `128·t … 128·t + 127`. The input and the first state are
  staged whole at every point (block index `(0, 0)`); the second state, the eight weight matrices, the four bias rows
  and the two results are staged by column block (block index `(0, t)`, the stacked result `(0, 0, t)`): decided
  over the grid. Before the region the host cuts the two states out of the stacked argument (slab 0 and slab 1, each
  viewed as a matrix) and lays each bias vector out as a one-row matrix. Hence, in row `r` and lane `l` of point `t`,
  with `c = 128·t + l`: the input's and the first state's blocks hold their whole row `r`; a weight's block holds
  column `c`; the second state's block holds entry `(r, c)` of slab 1; a bias block holds entry `c` — the record
  `Block.Holds` at that point.
-/
import proofs.«137886_j71270687310298_2_alg».proof.Proof.Gen.KernelIdeal.Value
import proofs.«137886_j71270687310298_2_alg».proof.Proof.KernelBlock
import proofs.«137886_j71270687310298_2_alg».proof.Proof.LibStackSlabs
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Reads

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The fourteen arguments, as arrays of extended reals -/

abbrev A0 (c : Dev nD) : FVec Ideal S512x2048 .f32 := m ((c : Thread nD τ).loc main_arg0)
abbrev A1 (c : Dev nD) : FVec Ideal S2x512x2048 .f32 := m ((c : Thread nD τ).loc main_arg1)
abbrev A2 (c : Dev nD) : FVec Ideal S2048x2048 .f32 := m ((c : Thread nD τ).loc main_arg2)
abbrev A3 (c : Dev nD) : FVec Ideal S2048x2048 .f32 := m ((c : Thread nD τ).loc main_arg3)
abbrev A4 (c : Dev nD) : FVec Ideal S2048 .f32 := m ((c : Thread nD τ).loc main_arg4)
abbrev A5 (c : Dev nD) : FVec Ideal S2048x2048 .f32 := m ((c : Thread nD τ).loc main_arg5)
abbrev A6 (c : Dev nD) : FVec Ideal S2048x2048 .f32 := m ((c : Thread nD τ).loc main_arg6)
abbrev A7 (c : Dev nD) : FVec Ideal S2048 .f32 := m ((c : Thread nD τ).loc main_arg7)
abbrev A8 (c : Dev nD) : FVec Ideal S2048x2048 .f32 := m ((c : Thread nD τ).loc main_arg8)
abbrev A9 (c : Dev nD) : FVec Ideal S2048x2048 .f32 := m ((c : Thread nD τ).loc main_arg9)
abbrev A10 (c : Dev nD) : FVec Ideal S2048 .f32 := m ((c : Thread nD τ).loc main_arg10)
abbrev A11 (c : Dev nD) : FVec Ideal S2048x2048 .f32 := m ((c : Thread nD τ).loc main_arg11)
abbrev A12 (c : Dev nD) : FVec Ideal S2048x2048 .f32 := m ((c : Thread nD τ).loc main_arg12)
abbrev A13 (c : Dev nD) : FVec Ideal S2048 .f32 := m ((c : Thread nD τ).loc main_arg13)

/-! ## The block index of every window at every point, decided over the grid -/

/-- A point's number is below sixteen. -/
theorem point_lt (t : Fin cfg0.N) : t.val < 16 := lt_of_lt_of_eq t.isLt N_0

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
theorem idx8 : ∀ t : Fin cfg0.N, win0_8.index t (0 : Fin 2) = 0 ∧ win0_8.index t (1 : Fin 2) = t.val :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)
theorem idx10 : ∀ t : Fin cfg0.N, win0_10.index t (0 : Fin 2) = 0 ∧ win0_10.index t (1 : Fin 2) = t.val :=
  (by decide +kernel : ∀ t : Fin grid0.N, _)
theorem idx11 : ∀ t : Fin cfg0.N, win0_11.index t (0 : Fin 2) = 0 ∧ win0_11.index t (1 : Fin 2) = t.val :=
  (by decide +kernel : ∀ t : Fin grid0.N, _)
theorem idx12 : ∀ t : Fin cfg0.N, win0_12.index t (0 : Fin 2) = 0 ∧ win0_12.index t (1 : Fin 2) = t.val :=
  (by decide +kernel : ∀ t : Fin grid0.N, _)
theorem idx13 : ∀ t : Fin cfg0.N, win0_13.index t (0 : Fin 2) = 0 ∧ win0_13.index t (1 : Fin 2) = t.val :=
  (by decide +kernel : ∀ t : Fin grid0.N, _)
theorem idx14 : ∀ t : Fin cfg0.N, win0_14.index t (0 : Fin 2) = 0 ∧ win0_14.index t (1 : Fin 2) = t.val :=
  (by decide +kernel : ∀ t : Fin grid0.N, _)
theorem idx15 : ∀ t : Fin cfg0.N, win0_15.index t (0 : Fin 2) = 0 ∧ win0_15.index t (1 : Fin 2) = t.val :=
  (by decide +kernel : ∀ t : Fin grid0.N, _)
theorem idx16 : ∀ t : Fin cfg0.N, win0_16.index t (0 : Fin 3) = 0 ∧ win0_16.index t (1 : Fin 3) = 0 ∧ win0_16.index t (2 : Fin 3) = t.val :=
  (by decide +kernel : ∀ t : Fin grid0.N, _)

/-! ## The arrays the host makes before the region -/

/-- The first state as the region finds it: slab 0 of the stacked states, viewed as a matrix. -/
theorem first_eq (c : Dev nD) : (V m c main_v1 : S512x2048.Idx → EReal) =
    shapeCast S512x2048 (extractStridedSlice S1x512x2048 ![0, 0, 0] (A1 m c) slices_S2x512x2048_S1x512x2048_0_0_0)
      shapeCasts_S1x512x2048_S512x2048 := by
  dsimp only [Gen.V, Gen.hostOps0]; after_results; rfl

/-- The second state as the region finds it: slab 1. -/
theorem second_eq (c : Dev nD) : (V m c main_v3 : S512x2048.Idx → EReal) =
    shapeCast S512x2048 (extractStridedSlice S1x512x2048 ![1, 0, 0] (A1 m c) slices_S2x512x2048_S1x512x2048_1_0_0)
      shapeCasts_S1x512x2048_S512x2048 := by
  dsimp only [Gen.V, Gen.hostOps0]; after_results; rfl

/-- Bias vector `main_arg4` as the region finds it: a one-row matrix. -/
theorem row11_eq (c : Dev nD) : (V m c main_v4 : S1x2048.Idx → EReal) = shapeCast S1x2048 (A4 m c) shapeCasts_S2048_S1x2048 := by
  dsimp only [Gen.V, Gen.hostOps0]; after_results; rfl

/-- Bias vector `main_arg7` as the region finds it: a one-row matrix. -/
theorem row12_eq (c : Dev nD) : (V m c main_v5 : S1x2048.Idx → EReal) = shapeCast S1x2048 (A7 m c) shapeCasts_S2048_S1x2048 := by
  dsimp only [Gen.V, Gen.hostOps0]; after_results; rfl

/-- Bias vector `main_arg10` as the region finds it: a one-row matrix. -/
theorem row13_eq (c : Dev nD) : (V m c main_v6 : S1x2048.Idx → EReal) = shapeCast S1x2048 (A10 m c) shapeCasts_S2048_S1x2048 := by
  dsimp only [Gen.V, Gen.hostOps0]; after_results; rfl

/-- Bias vector `main_arg13` as the region finds it: a one-row matrix. -/
theorem row14_eq (c : Dev nD) : (V m c main_v7 : S1x2048.Idx → EReal) = shapeCast S1x2048 (A13 m c) shapeCasts_S2048_S1x2048 := by
  dsimp only [Gen.V, Gen.hostOps0]; after_results; rfl

/-! ## The blocks -/

/-- The input's block is the whole input. -/
theorem read0 (c : Dev nD) (t : Fin cfg0.N) (r : Fin 512) (k : Fin 2048) :
    (iblk m c 0 t : Vec Ideal S512x2048 .f32) (ix2 r k) = A0 m c (ix2 r k) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t (0 : Fin 2) * 512 + 1 * r.val = r.val; omega
  | ⟨1, _⟩ => show win0_0.index t (1 : Fin 2) * 2048 + 1 * k.val = k.val; omega

/-- The first state's block is the whole of slab 0. -/
theorem read1 (c : Dev nD) (t : Fin cfg0.N) (r : Fin 512) (k : Fin 2048) :
    (iblk m c 1 t : Vec Ideal S512x2048 .f32) (ix2 r k) = A1 m c (ix3 (0 : Fin 2) r k) := by
  obtain ⟨e0, e1⟩ := idx1 t
  unfold iblk
  rw [View.read_apply]
  show V m c main_v1 _ = _
  rw [first_eq]
  refine Eq.trans (congrArg _ ?_) (Cert.LibStackSlabs.slab_apply ![0, 0, 0] (A1 m c) slices_S2x512x2048_S1x512x2048_0_0_0
    shapeCasts_S1x512x2048_S512x2048 (0 : Fin 2) rfl rfl rfl r k)
  funext a
  apply Fin.ext
  match a with
  | ⟨0, _⟩ => show win0_1.index t (0 : Fin 2) * 512 + 1 * r.val = r.val; omega
  | ⟨1, _⟩ => show win0_1.index t (1 : Fin 2) * 2048 + 1 * k.val = k.val; omega

/-- The second state's block holds columns `128·t …` of slab 1. -/
theorem read2 (c : Dev nD) (t : Fin cfg0.N) (r : Fin 512) (l : Fin 128) (col : Fin 2048) (hcol : col.val = t.val * 128 + l.val) :
    (iblk m c 2 t : Vec Ideal S512x128 .f32) (ix2 r l) = A1 m c (ix3 (1 : Fin 2) r col) := by
  obtain ⟨e0, e1⟩ := idx2 t
  unfold iblk
  rw [View.read_apply]
  show V m c main_v3 _ = _
  rw [second_eq]
  refine Eq.trans (congrArg _ ?_) (Cert.LibStackSlabs.slab_apply ![1, 0, 0] (A1 m c) slices_S2x512x2048_S1x512x2048_1_0_0
    shapeCasts_S1x512x2048_S512x2048 (1 : Fin 2) rfl rfl rfl r col)
  funext a
  apply Fin.ext
  match a with
  | ⟨0, _⟩ => show win0_2.index t (0 : Fin 2) * 512 + 1 * r.val = r.val; omega
  | ⟨1, _⟩ => show win0_2.index t (1 : Fin 2) * 128 + 1 * l.val = col.val; omega

/-- Window 3's block holds columns `128·t …` of weight `main_arg2`. -/
theorem read3 (c : Dev nD) (t : Fin cfg0.N) (k : Fin 2048) (l : Fin 128) (col : Fin 2048) (hcol : col.val = t.val * 128 + l.val) :
    (iblk m c 3 t : Vec Ideal S2048x128 .f32) (ix2 k l) = A2 m c (ix2 k col) := by
  obtain ⟨e0, e1⟩ := idx3 t
  unfold iblk
  rw [View.read_apply]
  show V m c main_arg2 _ = _
  rw [V_main_arg2]
  congr 1
  funext a
  apply Fin.ext
  match a with
  | ⟨0, _⟩ => show win0_3.index t (0 : Fin 2) * 2048 + 1 * k.val = k.val; omega
  | ⟨1, _⟩ => show win0_3.index t (1 : Fin 2) * 128 + 1 * l.val = col.val; omega

/-- Window 4's block holds columns `128·t …` of weight `main_arg5`. -/
theorem read4 (c : Dev nD) (t : Fin cfg0.N) (k : Fin 2048) (l : Fin 128) (col : Fin 2048) (hcol : col.val = t.val * 128 + l.val) :
    (iblk m c 4 t : Vec Ideal S2048x128 .f32) (ix2 k l) = A5 m c (ix2 k col) := by
  obtain ⟨e0, e1⟩ := idx4 t
  unfold iblk
  rw [View.read_apply]
  show V m c main_arg5 _ = _
  rw [V_main_arg5]
  congr 1
  funext a
  apply Fin.ext
  match a with
  | ⟨0, _⟩ => show win0_4.index t (0 : Fin 2) * 2048 + 1 * k.val = k.val; omega
  | ⟨1, _⟩ => show win0_4.index t (1 : Fin 2) * 128 + 1 * l.val = col.val; omega

/-- Window 5's block holds columns `128·t …` of weight `main_arg8`. -/
theorem read5 (c : Dev nD) (t : Fin cfg0.N) (k : Fin 2048) (l : Fin 128) (col : Fin 2048) (hcol : col.val = t.val * 128 + l.val) :
    (iblk m c 5 t : Vec Ideal S2048x128 .f32) (ix2 k l) = A8 m c (ix2 k col) := by
  obtain ⟨e0, e1⟩ := idx5 t
  unfold iblk
  rw [View.read_apply]
  show V m c main_arg8 _ = _
  rw [V_main_arg8]
  congr 1
  funext a
  apply Fin.ext
  match a with
  | ⟨0, _⟩ => show win0_5.index t (0 : Fin 2) * 2048 + 1 * k.val = k.val; omega
  | ⟨1, _⟩ => show win0_5.index t (1 : Fin 2) * 128 + 1 * l.val = col.val; omega

/-- Window 6's block holds columns `128·t …` of weight `main_arg11`. -/
theorem read6 (c : Dev nD) (t : Fin cfg0.N) (k : Fin 2048) (l : Fin 128) (col : Fin 2048) (hcol : col.val = t.val * 128 + l.val) :
    (iblk m c 6 t : Vec Ideal S2048x128 .f32) (ix2 k l) = A11 m c (ix2 k col) := by
  obtain ⟨e0, e1⟩ := idx6 t
  unfold iblk
  rw [View.read_apply]
  show V m c main_arg11 _ = _
  rw [V_main_arg11]
  congr 1
  funext a
  apply Fin.ext
  match a with
  | ⟨0, _⟩ => show win0_6.index t (0 : Fin 2) * 2048 + 1 * k.val = k.val; omega
  | ⟨1, _⟩ => show win0_6.index t (1 : Fin 2) * 128 + 1 * l.val = col.val; omega

/-- Window 7's block holds columns `128·t …` of weight `main_arg3`. -/
theorem read7 (c : Dev nD) (t : Fin cfg0.N) (k : Fin 2048) (l : Fin 128) (col : Fin 2048) (hcol : col.val = t.val * 128 + l.val) :
    (iblk m c 7 t : Vec Ideal S2048x128 .f32) (ix2 k l) = A3 m c (ix2 k col) := by
  obtain ⟨e0, e1⟩ := idx7 t
  unfold iblk
  rw [View.read_apply]
  show V m c main_arg3 _ = _
  rw [V_main_arg3]
  congr 1
  funext a
  apply Fin.ext
  match a with
  | ⟨0, _⟩ => show win0_7.index t (0 : Fin 2) * 2048 + 1 * k.val = k.val; omega
  | ⟨1, _⟩ => show win0_7.index t (1 : Fin 2) * 128 + 1 * l.val = col.val; omega

/-- Window 8's block holds columns `128·t …` of weight `main_arg6`. -/
theorem read8 (c : Dev nD) (t : Fin cfg0.N) (k : Fin 2048) (l : Fin 128) (col : Fin 2048) (hcol : col.val = t.val * 128 + l.val) :
    (iblk m c 8 t : Vec Ideal S2048x128 .f32) (ix2 k l) = A6 m c (ix2 k col) := by
  obtain ⟨e0, e1⟩ := idx8 t
  unfold iblk
  rw [View.read_apply]
  show V m c main_arg6 _ = _
  rw [V_main_arg6]
  congr 1
  funext a
  apply Fin.ext
  match a with
  | ⟨0, _⟩ => show win0_8.index t (0 : Fin 2) * 2048 + 1 * k.val = k.val; omega
  | ⟨1, _⟩ => show win0_8.index t (1 : Fin 2) * 128 + 1 * l.val = col.val; omega

/-- Window 9's block holds columns `128·t …` of weight `main_arg9`. -/
theorem read9 (c : Dev nD) (t : Fin cfg0.N) (k : Fin 2048) (l : Fin 128) (col : Fin 2048) (hcol : col.val = t.val * 128 + l.val) :
    (iblk m c 9 t : Vec Ideal S2048x128 .f32) (ix2 k l) = A9 m c (ix2 k col) := by
  obtain ⟨e0, e1⟩ := idx9 t
  unfold iblk
  rw [View.read_apply]
  show V m c main_arg9 _ = _
  rw [V_main_arg9]
  congr 1
  funext a
  apply Fin.ext
  match a with
  | ⟨0, _⟩ => show win0_9.index t (0 : Fin 2) * 2048 + 1 * k.val = k.val; omega
  | ⟨1, _⟩ => show win0_9.index t (1 : Fin 2) * 128 + 1 * l.val = col.val; omega

/-- Window 10's block holds columns `128·t …` of weight `main_arg12`. -/
theorem read10 (c : Dev nD) (t : Fin cfg0.N) (k : Fin 2048) (l : Fin 128) (col : Fin 2048) (hcol : col.val = t.val * 128 + l.val) :
    (iblk m c 10 t : Vec Ideal S2048x128 .f32) (ix2 k l) = A12 m c (ix2 k col) := by
  obtain ⟨e0, e1⟩ := idx10 t
  unfold iblk
  rw [View.read_apply]
  show V m c main_arg12 _ = _
  rw [V_main_arg12]
  congr 1
  funext a
  apply Fin.ext
  match a with
  | ⟨0, _⟩ => show win0_10.index t (0 : Fin 2) * 2048 + 1 * k.val = k.val; omega
  | ⟨1, _⟩ => show win0_10.index t (1 : Fin 2) * 128 + 1 * l.val = col.val; omega

/-- Window 11's block holds entries `128·t …` of bias `main_arg4`. -/
theorem read11 (c : Dev nD) (t : Fin cfg0.N) (l : Fin 128) (col : Fin 2048) (hcol : col.val = t.val * 128 + l.val) :
    (iblk m c 11 t : Vec Ideal S1x128 .f32) (ix2 (0 : Fin 1) l) = A4 m c (ix1 col) := by
  obtain ⟨e0, e1⟩ := idx11 t
  unfold iblk
  rw [View.read_apply]
  show V m c main_v4 _ = _
  rw [row11_eq]
  refine Eq.trans (congrArg _ ?_) (shapeCast_a_1a_apply (A4 m c) shapeCasts_S2048_S1x2048 (0 : Fin 1) col)
  funext a
  apply Fin.ext
  match a with
  | ⟨0, _⟩ => show win0_11.index t (0 : Fin 2) * 1 + 1 * 0 = 0; omega
  | ⟨1, _⟩ => show win0_11.index t (1 : Fin 2) * 128 + 1 * l.val = col.val; omega

/-- Window 12's block holds entries `128·t …` of bias `main_arg7`. -/
theorem read12 (c : Dev nD) (t : Fin cfg0.N) (l : Fin 128) (col : Fin 2048) (hcol : col.val = t.val * 128 + l.val) :
    (iblk m c 12 t : Vec Ideal S1x128 .f32) (ix2 (0 : Fin 1) l) = A7 m c (ix1 col) := by
  obtain ⟨e0, e1⟩ := idx12 t
  unfold iblk
  rw [View.read_apply]
  show V m c main_v5 _ = _
  rw [row12_eq]
  refine Eq.trans (congrArg _ ?_) (shapeCast_a_1a_apply (A7 m c) shapeCasts_S2048_S1x2048 (0 : Fin 1) col)
  funext a
  apply Fin.ext
  match a with
  | ⟨0, _⟩ => show win0_12.index t (0 : Fin 2) * 1 + 1 * 0 = 0; omega
  | ⟨1, _⟩ => show win0_12.index t (1 : Fin 2) * 128 + 1 * l.val = col.val; omega

/-- Window 13's block holds entries `128·t …` of bias `main_arg10`. -/
theorem read13 (c : Dev nD) (t : Fin cfg0.N) (l : Fin 128) (col : Fin 2048) (hcol : col.val = t.val * 128 + l.val) :
    (iblk m c 13 t : Vec Ideal S1x128 .f32) (ix2 (0 : Fin 1) l) = A10 m c (ix1 col) := by
  obtain ⟨e0, e1⟩ := idx13 t
  unfold iblk
  rw [View.read_apply]
  show V m c main_v6 _ = _
  rw [row13_eq]
  refine Eq.trans (congrArg _ ?_) (shapeCast_a_1a_apply (A10 m c) shapeCasts_S2048_S1x2048 (0 : Fin 1) col)
  funext a
  apply Fin.ext
  match a with
  | ⟨0, _⟩ => show win0_13.index t (0 : Fin 2) * 1 + 1 * 0 = 0; omega
  | ⟨1, _⟩ => show win0_13.index t (1 : Fin 2) * 128 + 1 * l.val = col.val; omega

/-- Window 14's block holds entries `128·t …` of bias `main_arg13`. -/
theorem read14 (c : Dev nD) (t : Fin cfg0.N) (l : Fin 128) (col : Fin 2048) (hcol : col.val = t.val * 128 + l.val) :
    (iblk m c 14 t : Vec Ideal S1x128 .f32) (ix2 (0 : Fin 1) l) = A13 m c (ix1 col) := by
  obtain ⟨e0, e1⟩ := idx14 t
  unfold iblk
  rw [View.read_apply]
  show V m c main_v7 _ = _
  rw [row14_eq]
  refine Eq.trans (congrArg _ ?_) (shapeCast_a_1a_apply (A13 m c) shapeCasts_S2048_S1x2048 (0 : Fin 1) col)
  funext a
  apply Fin.ext
  match a with
  | ⟨0, _⟩ => show win0_14.index t (0 : Fin 2) * 1 + 1 * 0 = 0; omega
  | ⟨1, _⟩ => show win0_14.index t (1 : Fin 2) * 128 + 1 * l.val = col.val; omega

/-! ## All fifteen at once -/

/-- At point `t`, in row `r` and lane `l`, the blocks hold the arguments' entries of row `r` and column `128·t + l`. -/
theorem holds (c : Dev nD) (t : Fin cfg0.N) (r : Fin 512) (l : Fin 128) (col : Fin 2048) (hcol : col.val = t.val * 128 + l.val) :
    Cert.KernelIdeal.Block.Holds (A0 m c) (A1 m c) (A2 m c) (A3 m c) (A4 m c) (A5 m c) (A6 m c) (A7 m c) (A8 m c) (A9 m c)
      (A10 m c) (A11 m c) (A12 m c) (A13 m c)
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) r l col where
  input := read0 m c t r
  first := read1 m c t r
  second := read2 m c t r l col hcol
  wi := fun k => read3 m c t k l col hcol
  wf := fun k => read4 m c t k l col hcol
  wg := fun k => read5 m c t k l col hcol
  wc := fun k => read6 m c t k l col hcol
  ui := fun k => read7 m c t k l col hcol
  uf := fun k => read8 m c t k l col hcol
  ug := fun k => read9 m c t k l col hcol
  uc := fun k => read10 m c t k l col hcol
  bi := read11 m c t l col hcol
  bf := read12 m c t l col hcol
  bg := read13 m c t l col hcol
  bc := read14 m c t l col hcol

end Cert.KernelIdeal.Reads

end
-- ==== Proof.KernelArrays.lean ====
/-
  From what each grid point writes back to the two whole result arrays, and the kernel's run.

  Point `t` writes back block `(0, t)` of the first result and block `(0, 0, t)` of the stacked result: columns
  `128·t … 128·t + 127`, every row, both slabs. The first result's buffer holds the one value the body stores, which
  at `(r, l)` is the new cell at `(r, 128·t + l)` (`KernelBlock` over `KernelReads`). The stacked result's buffer is
  stored in two pieces, slab 0 with the new hidden state and slab 1 with the new cell; both pieces agree with one
  function of the block's index, the stack of `LstmCell` read at the block's place in the array. So each point writes
  back its block of `LstmCell.cellArr`, respectively `LstmCell.stackArr`, of the arguments. Every column lies in
  exactly the block of point `column / 128`, so the sixteen blocks cover each array, and after the run the two
  results hold those two functions of the arguments, whole.
-/
import proofs.«137886_j71270687310298_2_alg».proof.Proof.Gen.KernelIdeal.Value
import proofs.«137886_j71270687310298_2_alg».proof.Proof.KernelReads
import Idealize.ShloMosaic.Lib.Pipeline.Value
import Idealize.ShloMosaic.Lib.ValueIdx

noncomputable section

namespace Cert.KernelIdeal.Arrays

open Cert.KernelIdeal Cert.KernelIdeal.Gen Cert.KernelIdeal.Value Cert.KernelIdeal.Reads
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-- The first result as a function of the arguments: the array of new cells. -/
abbrev cells (c : Dev nD) : FVec Ideal S512x2048 .f32 :=
  Cert.LstmCell.cellArr (A0 m c) (A1 m c) (A2 m c) (A3 m c) (A4 m c) (A5 m c) (A6 m c) (A7 m c) (A11 m c) (A12 m c) (A13 m c)

/-- The second result as a function of the arguments: the new hidden state stacked on the new cell. -/
abbrev stacked (c : Dev nD) : FVec Ideal S2x512x2048 .f32 :=
  Cert.LstmCell.stackArr (A0 m c) (A1 m c) (A2 m c) (A3 m c) (A4 m c) (A5 m c) (A6 m c) (A7 m c) (A8 m c) (A9 m c) (A10 m c) (A11 m c) (A12 m c) (A13 m c)

/-- The column of the arrays that lane `l` of point `t` works on. -/
def col (t : Fin cfg0.N) (l : Fin 128) : Fin 2048 := ⟨t.val * 128 + l.val, by have := point_lt t; have := l.isLt; omega⟩

/-! ## The first result -/

/-- What the body stores for the first result, at an index of the block, is the array of new cells at the block's
    place in the array. -/
theorem store15 (c : Dev nD) (t : Fin cfg0.N) (y : S512x128.Idx) :
    k0_pay1 (F := Ideal) (k0_pay4 (iblk m c 0 t)) (k0_pay5 (iblk m c 1 t)) (k0_pay6 (iblk m c 2 t)) (k0_pay7 (iblk m c 0 t) (iblk m c 1 t) (iblk m c 3 t) (iblk m c 7 t) (iblk m c 11 t)) (k0_pay8 (iblk m c 0 t) (iblk m c 1 t) (iblk m c 4 t) (iblk m c 8 t) (iblk m c 12 t)) (iblk m c 6 t) (iblk m c 10 t) (iblk m c 14 t) y
      = cells m c (((cfg0.win 15).blk t).view.emb y) := by
  obtain ⟨r, l, rfl⟩ : ∃ (r : Fin 512) (l : Fin 128), y = ix2 r l := ⟨y 0, y 1, eq_ix2 y⟩
  obtain ⟨e0, e1⟩ := idx15 t
  refine (Cert.KernelIdeal.Block.cell_block (holds m c t r l (col t l) rfl)).trans ?_
  refine (Cert.LstmCell.cellArr_at _ _ _ _ _ _ _ _ _ _ _ _ r (col t l) (Fin.ext ?_) (Fin.ext ?_)).symm
  · show win0_15.index t (0 : Fin 2) * 512 + 1 * r.val = r.val; omega
  · show win0_15.index t (1 : Fin 2) * 128 + 1 * l.val = t.val * 128 + l.val; omega

/-- WHAT POINT `t` WRITES BACK to the first result is its block of the array of new cells. -/
theorem flushed15_eq (c : Dev nD) (t : Fin cfg0.N) :
    (dats m 0 c).flushed 15 t = ((cfg0.win 15).blk t).view.read (Elt Ideal) (cells m c) := by
  rw [Value.flushed15]
  unfold out0_15
  rw [View.canon_unit_zero hz2]
  simp only [View.ld_unit_zero (S := S512x2048) hz2, View.ld_unit_zero (S := S512x128) hz2, View.ld_unit_zero (S := S2048x128) hz2, View.ld_unit_zero (S := S1x128) hz2]
  funext j
  exact store15 m c t j

/-- An index of the first result is in point `t`'s block iff each coordinate is in the block's range on its axis. -/
theorem mem_blk15 (t : Fin cfg0.N) (i : S512x2048.Idx) :
    i ∈ ((cfg0.win 15).blk t).view.set ↔ ∀ a : Fin 2, win0_15.index t a * S512x128.size a ≤ (i a).val
      ∧ (i a).val < win0_15.index t a * S512x128.size a + S512x128.size a := by
  show i ∈ ((View.whole main_v8_0).slice (win0_15.rect t)).set ↔ _
  rw [View.set_slice_whole, Rect.mem_set_unit]
  exact Iff.rfl

/-- Every index of the first result is in the block of the point its column names. -/
theorem cover15 (i : S512x2048.Idx) :
    ∃ t : Fin cfg0.N, (cfg0.win 15).flush t = true ∧ i ∈ ((cfg0.win 15).blk t).view.set := by
  have hi0 : (i 0).val < 512 := (i 0).isLt
  have hi1 : (i 1).val < 2048 := (i 1).isLt
  have hN : cfg0.N = 16 := N_0
  let t : Fin cfg0.N := ⟨(i 1).val / 128, by rw [hN]; omega⟩
  obtain ⟨e0, e1⟩ := idx15 t
  have ht : t.val = (i 1).val / 128 := rfl
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 128 ≤ (i 1).val ∧ (i 1).val < win0_15.index t (1 : Fin 2) * 128 + 128; omega

/-- THE FIRST RESULT after the run is the array of new cells of the arguments. -/
theorem final15 (c : Dev nD) : (dats m 0 c).arrAt 15 cfg0.N = cells m c :=
  (dats m 0 c).arrAt_eq_of_cover 15 (cells m c) (fun t _ => flushed15_eq m c t) cover15

/-! ## The stacked result -/

/-- The piece stored into slab 1 of the stacked block holds the new cell: the stack at the block's place. -/
theorem store16_cell (c : Dev nD) (t : Fin cfg0.N) (x : S1x512x128.Idx) :
    k0_pay3 (F := Ideal) (k0_pay4 (iblk m c 0 t)) (k0_pay5 (iblk m c 1 t)) (k0_pay6 (iblk m c 2 t)) (k0_pay7 (iblk m c 0 t) (iblk m c 1 t) (iblk m c 3 t) (iblk m c 7 t) (iblk m c 11 t)) (k0_pay8 (iblk m c 0 t) (iblk m c 1 t) (iblk m c 4 t) (iblk m c 8 t) (iblk m c 12 t)) (iblk m c 6 t) (iblk m c 10 t) (iblk m c 14 t) x
      = stacked m c (((cfg0.win 16).blk t).view.emb (r0_5.emb x)) := by
  obtain ⟨u, r, l, rfl⟩ : ∃ (u : Fin 1) (r : Fin 512) (l : Fin 128), x = ix3 u r l := ⟨x 0, x 1, x 2, eq_ix3 x⟩
  obtain rfl : u = 0 := Subsingleton.elim _ _
  obtain ⟨e0, e1, e2⟩ := idx16 t
  refine (Cert.KernelIdeal.Block.cell_slab_block (holds m c t r l (col t l) rfl)).trans ?_
  refine (Cert.LstmCell.stackArr_at_one _ _ _ _ _ _ _ _ _ _ _ _ _ _ _ r (col t l) ?_ (Fin.ext ?_) (Fin.ext ?_)).symm
  · show win0_16.index t (0 : Fin 3) * 2 + 1 * (1 + 1 * 0) = 1; omega
  · show win0_16.index t (1 : Fin 3) * 512 + 1 * (0 + 1 * r.val) = r.val; omega
  · show win0_16.index t (2 : Fin 3) * 128 + 1 * (0 + 1 * l.val) = t.val * 128 + l.val; omega

/-- The piece stored into slab 0 of the stacked block holds the new hidden state: the stack at the block's place. -/
theorem store16_hidden (c : Dev nD) (t : Fin cfg0.N) (x : S1x512x128.Idx) :
    k0_pay2 (F := Ideal) (k0_pay4 (iblk m c 0 t)) (k0_pay5 (iblk m c 1 t)) (k0_pay6 (iblk m c 2 t)) (k0_pay7 (iblk m c 0 t) (iblk m c 1 t) (iblk m c 3 t) (iblk m c 7 t) (iblk m c 11 t)) (k0_pay8 (iblk m c 0 t) (iblk m c 1 t) (iblk m c 4 t) (iblk m c 8 t) (iblk m c 12 t)) (k0_pay9 (iblk m c 5 t)) (k0_pay10 (iblk m c 9 t)) (iblk m c 13 t) (iblk m c 6 t) (iblk m c 10 t) (iblk m c 14 t) x
      = stacked m c (((cfg0.win 16).blk t).view.emb (r0_4.emb x)) := by
  obtain ⟨u, r, l, rfl⟩ : ∃ (u : Fin 1) (r : Fin 512) (l : Fin 128), x = ix3 u r l := ⟨x 0, x 1, x 2, eq_ix3 x⟩
  obtain rfl : u = 0 := Subsingleton.elim _ _
  obtain ⟨e0, e1, e2⟩ := idx16 t
  refine (Cert.KernelIdeal.Block.hidden_block (holds m c t r l (col t l) rfl)).trans ?_
  refine (Cert.LstmCell.stackArr_at_zero _ _ _ _ _ _ _ _ _ _ _ _ _ _ _ r (col t l) ?_ (Fin.ext ?_) (Fin.ext ?_)).symm
  · show win0_16.index t (0 : Fin 3) * 2 + 1 * (0 + 1 * 0) = 0; omega
  · show win0_16.index t (1 : Fin 3) * 512 + 1 * (0 + 1 * r.val) = r.val; omega
  · show win0_16.index t (2 : Fin 3) * 128 + 1 * (0 + 1 * l.val) = t.val * 128 + l.val; omega

/-- What the stacked result's buffer holds after the body, at any index of the block: the stack at the block's place
    (the two pieces cover the block, and each agrees with that one function). -/
theorem stack_block (c : Dev nD) (t : Fin cfg0.N) (j : S2x512x128.Idx) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) j
      = stacked m c (((cfg0.win 16).blk t).view.emb j) := by
  unfold out0_16
  simp only [View.ld_unit_zero (S := S512x2048) hz2, View.ld_unit_zero (S := S512x128) hz2, View.ld_unit_zero (S := S2048x128) hz2, View.ld_unit_zero (S := S1x128) hz2]
  refine View.canon_apply_of_pieces (Val := Elt Ideal) (S := S2x512x128) (e := .f32)
    (fun y => stacked m c (((cfg0.win 16).blk t).view.emb y)) _ ?_ j (cover0_16 _ _ j)
  intro p hp x
  simp only [List.mem_cons, List.not_mem_nil, or_false] at hp
  rcases hp with rfl | rfl
  · exact store16_cell m c t x
  · exact store16_hidden m c t x

/-- WHAT POINT `t` WRITES BACK to the stacked result is its block of the stack. -/
theorem flushed16_eq (c : Dev nD) (t : Fin cfg0.N) :
    (dats m 0 c).flushed 16 t = ((cfg0.win 16).blk t).view.read (Elt Ideal) (stacked m c) := by
  rw [Value.flushed16]
  funext j
  exact stack_block m c t j

/-- An index of the stacked result is in point `t`'s block iff each coordinate is in the block's range on its axis. -/
theorem mem_blk16 (t : Fin cfg0.N) (i : S2x512x2048.Idx) :
    i ∈ ((cfg0.win 16).blk t).view.set ↔ ∀ a : Fin 3, win0_16.index t a * S2x512x128.size a ≤ (i a).val
      ∧ (i a).val < win0_16.index t a * S2x512x128.size a + S2x512x128.size a := by
  show i ∈ ((View.whole main_v8_1).slice (win0_16.rect t)).set ↔ _
  rw [View.set_slice_whole, Rect.mem_set_unit]
  exact Iff.rfl

/-- Every index of the stacked result is in the block of the point its column names. -/
theorem cover16 (i : S2x512x2048.Idx) :
    ∃ t : Fin cfg0.N, (cfg0.win 16).flush t = true ∧ i ∈ ((cfg0.win 16).blk t).view.set := by
  have hi0 : (i 0).val < 2 := (i 0).isLt
  have hi1 : (i 1).val < 512 := (i 1).isLt
  have hi2 : (i 2).val < 2048 := (i 2).isLt
  have hN : cfg0.N = 16 := N_0
  let t : Fin cfg0.N := ⟨(i 2).val / 128, by rw [hN]; omega⟩
  obtain ⟨e0, e1, e2⟩ := idx16 t
  have ht : t.val = (i 2).val / 128 := rfl
  refine ⟨t, flush0_16 t, ?_⟩
  rw [mem_blk16]
  intro a
  match a with
  | ⟨0, _⟩ => show win0_16.index t (0 : Fin 3) * 2 ≤ (i 0).val ∧ (i 0).val < win0_16.index t (0 : Fin 3) * 2 + 2; omega
  | ⟨1, _⟩ => show win0_16.index t (1 : Fin 3) * 512 ≤ (i 1).val ∧ (i 1).val < win0_16.index t (1 : Fin 3) * 512 + 512; omega
  | ⟨2, _⟩ => show win0_16.index t (2 : Fin 3) * 128 ≤ (i 2).val ∧ (i 2).val < win0_16.index t (2 : Fin 3) * 128 + 128; omega

/-- THE STACKED RESULT after the run is the stack of the new hidden state on the new cell. -/
theorem final16 (c : Dev nD) : (dats m 0 c).arrAt 16 cfg0.N = stacked m c :=
  (dats m 0 c).arrAt_eq_of_cover 16 (stacked m c) (fun t _ => flushed16_eq m c t) cover16

/-! ## The run, read -/

/-- Every weakly fair execution of the kernel terminates with its first result at the array of new cells of its
    arguments, its second at the stack of the new hidden state on the new cell, and its arguments unchanged. -/
theorem run : θ_run defs (onTc (τ := τ) (main (F := Ideal))) ⟨m, fun _ => 0, ρ⟩ fun r => ∀ c : Dev nD,
      r.2.mem ((c : Thread nD τ).loc main_v8_0) = cells m c
      ∧ r.2.mem ((c : Thread nD τ).loc main_v8_1) = stacked m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final15 m c), (h c).2.1.trans (final16 m c), (h c).2.2⟩)
    (Value.run_blocks m ρ)

end Cert.KernelIdeal.Arrays

end
-- ==== Proof.RefCell.lean ====
/-
  The reference computes the LSTM step of `LstmCell`.

  Read one operation at a time, the reference forms each gate as the sum of two matrix products and a bias row: a
  product is, entry by entry, the sum over the contracted axis; the first state is slab 0 of the stacked states and
  the second state slab 1; a bias is a vector broadcast down the rows. Its sigmoid is written out as
  `1 / (1 + exp (-x))` with the float word of one, which is the sigmoid. The new cell and the new hidden state are
  then the same products and sums as in `LstmCell`, and the second result joins the hidden state and the cell along a
  new leading axis. Both results are therefore `LstmCell.cellArr` and `LstmCell.stackArr` of the arguments, and the
  reference's run ends with its two results at those two functions of its arguments.
-/
import proofs.«137886_j71270687310298_2_alg».proof.Proof.Gen.ReferenceIdeal.Read
import proofs.«137886_j71270687310298_2_alg».proof.Proof.LstmCell
import proofs.«137886_j71270687310298_2_alg».proof.Proof.LibDotRows
import proofs.«137886_j71270687310298_2_alg».proof.Proof.LibStackSlabs
import Idealize.ShloMosaic.Lib.ValueIdx
import Idealize.ShloMosaic.Lib.ValueLayout

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

variable (x0 : FVec Ideal S512x2048 .f32) (x1 : FVec Ideal S2x512x2048 .f32)

/-- A product of the reference at entry `(r, c)`: the sum over the contracted axis. -/
theorem dot_apply (x : FVec Ideal S512x2048 .f32) (w : FVec Ideal S2048x2048 .f32) (r : Fin 512) (c : Fin 2048) :
    val_main_v4 (F := Ideal) x w (ix2 r c) = ∑ k : Fin 2048, x (ix2 r k) * w (ix2 k c) := by
  show Host.dotGeneral (F := Ideal) (DotDims.plain 512 2048 2048) none x w (ix2 r c) = _
  exact Cert.Lib.DotRows.dotGeneral_plain_apply x w r c

/-- The first state, as the reference cuts it out of the stacked states: slab 0. -/
theorem prev_apply (r : Fin 512) (k : Fin 2048) : val_main_v1 (F := Ideal) x1 (ix2 r k) = x1 (ix3 (0 : Fin 2) r k) :=
  Cert.LibStackSlabs.slab_apply ![0, 0, 0] x1 slices_S2x512x2048_S1x512x2048_0_0_0 shapeCasts_S1x512x2048_S512x2048
    (0 : Fin 2) rfl rfl rfl r k

/-- The second state: slab 1. -/
theorem other_apply (r : Fin 512) (c : Fin 2048) : val_main_v3 (F := Ideal) x1 (ix2 r c) = x1 (ix3 (1 : Fin 2) r c) :=
  Cert.LibStackSlabs.slab_apply ![1, 0, 0] x1 slices_S2x512x2048_S1x512x2048_1_0_0 shapeCasts_S1x512x2048_S512x2048
    (1 : Fin 2) rfl rfl rfl r c

/-- A bias broadcast down the rows reads the bias at the column. -/
theorem bias_apply (b : FVec Ideal S2048 .f32) (r : Fin 512) (c : Fin 2048) :
    val_main_v8 (F := Ideal) b (ix2 r c) = b (ix1 c) :=
  (Cert.LibStackSlabs.rows_bcast_apply (val_main_v7 (F := Ideal) b) bcast_S1x2048_S512x2048_0_1 r c).trans
    (Cert.LibStackSlabs.row_bcast_apply b bcast_S2048_S1x2048_1 c)

/-- ONE GATE before its nonlinearity, for any weights and bias: `LstmCell.pre`. -/
theorem gate_apply (W U : FVec Ideal S2048x2048 .f32) (b : FVec Ideal S2048 .f32) (r : Fin 512) (c : Fin 2048) :
    (addf (F := Ideal) (addf (F := Ideal) (val_main_v4 (F := Ideal) x0 W) (val_main_v5 (F := Ideal) x1 U))
        (val_main_v8 (F := Ideal) b) : FVec Ideal S512x2048 .f32) (ix2 r c)
      = Cert.LstmCell.pre x0 x1 W U b r c := by
  show (val_main_v4 (F := Ideal) x0 W (ix2 r c) + val_main_v4 (F := Ideal) (val_main_v1 (F := Ideal) x1) U (ix2 r c))
      + val_main_v8 (F := Ideal) b (ix2 r c) = _
  rw [dot_apply, dot_apply, bias_apply]
  unfold Cert.LstmCell.pre
  congr 2
  exact Finset.sum_congr rfl fun k _ => by rw [prev_apply]

/-- The sigmoid as the reference spells it, of any array, at an entry. -/
theorem sigmoid_apply (z : FVec Ideal S512x2048 .f32) (i : S512x2048.Idx) :
    (Host.divf (F := Ideal) (val_main_v14 (F := Ideal)) (addf (F := Ideal) (val_main_v12 (F := Ideal))
        (Host.exp (F := Ideal) (Host.negf (F := Ideal) z))) : FVec Ideal S512x2048 .f32) i
      = Ideal.logistic (z i) := by
  show Ideal.div (val_main_v14 (F := Ideal) i) (val_main_v12 (F := Ideal) i + Ideal.exp (-(z i))) = _
  rw [val_main_v14_apply, val_main_cst_0_apply, val_main_v12_apply, val_main_cst_apply]
  exact Cert.LstmCell.sigmoid_spelled (z i)

variable (x2 x3 : FVec Ideal S2048x2048 .f32) (x4 : FVec Ideal S2048 .f32)
  (x5 x6 : FVec Ideal S2048x2048 .f32) (x7 : FVec Ideal S2048 .f32)
  (x8 x9 : FVec Ideal S2048x2048 .f32) (x10 : FVec Ideal S2048 .f32)
  (x11 x12 : FVec Ideal S2048x2048 .f32) (x13 : FVec Ideal S2048 .f32)

/-- The input gate. -/
theorem gate_i (r : Fin 512) (c : Fin 2048) :
    val_main_v15 (F := Ideal) x0 x1 x2 x3 x4 (ix2 r c) = Ideal.logistic (Cert.LstmCell.pre x0 x1 x2 x3 x4 r c) :=
  (sigmoid_apply (val_main_v9 (F := Ideal) x0 x1 x2 x3 x4) (ix2 r c)).trans
    (congrArg Ideal.logistic (gate_apply x0 x1 x2 x3 x4 r c))

/-- The forget gate. -/
theorem gate_f (r : Fin 512) (c : Fin 2048) :
    val_main_v27 (F := Ideal) x0 x1 x5 x6 x7 (ix2 r c) = Ideal.logistic (Cert.LstmCell.pre x0 x1 x5 x6 x7 r c) :=
  (sigmoid_apply (val_main_v21 (F := Ideal) x0 x1 x5 x6 x7) (ix2 r c)).trans
    (congrArg Ideal.logistic (gate_apply x0 x1 x5 x6 x7 r c))

/-- The output gate. -/
theorem gate_g (r : Fin 512) (c : Fin 2048) :
    val_main_v39 (F := Ideal) x0 x1 x8 x9 x10 (ix2 r c) = Ideal.logistic (Cert.LstmCell.pre x0 x1 x8 x9 x10 r c) :=
  (sigmoid_apply (val_main_v33 (F := Ideal) x0 x1 x8 x9 x10) (ix2 r c)).trans
    (congrArg Ideal.logistic (gate_apply x0 x1 x8 x9 x10 r c))

/-- The candidate. -/
theorem gate_c (r : Fin 512) (c : Fin 2048) :
    val_main_v46 (F := Ideal) x0 x1 x11 x12 x13 (ix2 r c) = Ideal.tanh (Cert.LstmCell.pre x0 x1 x11 x12 x13 r c) :=
  congrArg Ideal.tanh (gate_apply x0 x1 x11 x12 x13 r c)

/-- The new cell at an entry. -/
theorem cell_apply (r : Fin 512) (c : Fin 2048) :
    val_main_v49 (F := Ideal) x0 x1 x2 x3 x4 x5 x6 x7 x11 x12 x13 (ix2 r c)
      = Cert.LstmCell.cell x0 x1 x2 x3 x4 x5 x6 x7 x11 x12 x13 r c := by
  show val_main_v27 (F := Ideal) x0 x1 x5 x6 x7 (ix2 r c) * val_main_v3 (F := Ideal) x1 (ix2 r c)
      + val_main_v15 (F := Ideal) x0 x1 x2 x3 x4 (ix2 r c) * val_main_v46 (F := Ideal) x0 x1 x11 x12 x13 (ix2 r c) = _
  rw [gate_f, other_apply, gate_i, gate_c]
  rfl

/-- The new hidden state at an entry. -/
theorem hidden_apply (r : Fin 512) (c : Fin 2048) :
    val_main_v51 (F := Ideal) x0 x1 x2 x3 x4 x5 x6 x7 x8 x9 x10 x11 x12 x13 (ix2 r c)
      = Cert.LstmCell.hidden x0 x1 x2 x3 x4 x5 x6 x7 x8 x9 x10 x11 x12 x13 r c := by
  show val_main_v39 (F := Ideal) x0 x1 x8 x9 x10 (ix2 r c)
      * Ideal.tanh (val_main_v49 (F := Ideal) x0 x1 x2 x3 x4 x5 x6 x7 x11 x12 x13 (ix2 r c)) = _
  rw [gate_g, cell_apply]
  rfl

/-- THE FIRST RESULT of the reference is the array of new cells. -/
theorem cell_eq : val_main_v49 (F := Ideal) x0 x1 x2 x3 x4 x5 x6 x7 x11 x12 x13
    = Cert.LstmCell.cellArr x0 x1 x2 x3 x4 x5 x6 x7 x11 x12 x13 := by
  funext i
  obtain ⟨r, c, rfl⟩ : ∃ (r : Fin 512) (c : Fin 2048), i = ix2 r c := ⟨i 0, i 1, eq_ix2 i⟩
  exact cell_apply x0 x1 x2 x3 x4 x5 x6 x7 x11 x12 x13 r c

/-- THE SECOND RESULT of the reference is the new hidden state stacked on the new cell. -/
theorem stack_eq : val_main_v54 (F := Ideal) x0 x1 x2 x3 x4 x5 x6 x7 x8 x9 x10 x11 x12 x13
    = Cert.LstmCell.stackArr x0 x1 x2 x3 x4 x5 x6 x7 x8 x9 x10 x11 x12 x13 := by
  funext i
  obtain ⟨s, r, c, rfl⟩ : ∃ (s : Fin 2) (r : Fin 512) (c : Fin 2048), i = ix3 s r c := ⟨i 0, i 1, i 2, eq_ix3 i⟩
  unfold val_main_v54 Cert.LstmCell.stackArr
  match s with
  | ⟨0, _⟩ =>
    refine (Cert.LibStackSlabs.stack2_fst _ _ concatenates_S1x512x2048_S1x512x2048_S2x512x2048_d0 r c).trans ?_
    refine (Cert.LibStackSlabs.lead_bcast_apply _ bcast_S512x2048_S1x512x2048_1_2 r c).trans ?_
    refine (hidden_apply x0 x1 x2 x3 x4 x5 x6 x7 x8 x9 x10 x11 x12 x13 r c).trans ?_
    exact (if_pos rfl).symm
  | ⟨1, _⟩ =>
    refine (Cert.LibStackSlabs.stack2_snd _ _ concatenates_S1x512x2048_S1x512x2048_S2x512x2048_d0 r c).trans ?_
    refine (Cert.LibStackSlabs.lead_bcast_apply _ bcast_S512x2048_S1x512x2048_1_2 r c).trans ?_
    refine (cell_apply x0 x1 x2 x3 x4 x5 x6 x7 x11 x12 x13 r c).trans ?_
    exact (if_neg Nat.one_ne_zero).symm

/-! ## The reference's run, read -/

section Run

variable (m : (ℓ : Loc nD τ sig) → Buf (Elt Ideal) ℓ) (ρ : Dev nD → PrngReg)

abbrev B0 (c : Dev nD) : FVec Ideal S512x2048 .f32 := m ((c.tc : Thread nD τ).loc main_arg0)
abbrev B1 (c : Dev nD) : FVec Ideal S2x512x2048 .f32 := m ((c.tc : Thread nD τ).loc main_arg1)
abbrev B2 (c : Dev nD) : FVec Ideal S2048x2048 .f32 := m ((c.tc : Thread nD τ).loc main_arg2)
abbrev B3 (c : Dev nD) : FVec Ideal S2048x2048 .f32 := m ((c.tc : Thread nD τ).loc main_arg3)
abbrev B4 (c : Dev nD) : FVec Ideal S2048 .f32 := m ((c.tc : Thread nD τ).loc main_arg4)
abbrev B5 (c : Dev nD) : FVec Ideal S2048x2048 .f32 := m ((c.tc : Thread nD τ).loc main_arg5)
abbrev B6 (c : Dev nD) : FVec Ideal S2048x2048 .f32 := m ((c.tc : Thread nD τ).loc main_arg6)
abbrev B7 (c : Dev nD) : FVec Ideal S2048 .f32 := m ((c.tc : Thread nD τ).loc main_arg7)
abbrev B8 (c : Dev nD) : FVec Ideal S2048x2048 .f32 := m ((c.tc : Thread nD τ).loc main_arg8)
abbrev B9 (c : Dev nD) : FVec Ideal S2048x2048 .f32 := m ((c.tc : Thread nD τ).loc main_arg9)
abbrev B10 (c : Dev nD) : FVec Ideal S2048 .f32 := m ((c.tc : Thread nD τ).loc main_arg10)
abbrev B11 (c : Dev nD) : FVec Ideal S2048x2048 .f32 := m ((c.tc : Thread nD τ).loc main_arg11)
abbrev B12 (c : Dev nD) : FVec Ideal S2048x2048 .f32 := m ((c.tc : Thread nD τ).loc main_arg12)
abbrev B13 (c : Dev nD) : FVec Ideal S2048 .f32 := m ((c.tc : Thread nD τ).loc main_arg13)

/-- Every weakly fair execution of the reference terminates with its first result at the array of new cells of its
    arguments, its second at the stack of the new hidden state on the new cell, and its arguments unchanged. -/
theorem run : θ_run defs (onTc (τ := τ) (main (F := Ideal))) ⟨m, fun _ => 0, ρ⟩ fun r => ∀ c : Dev nD,
      r.2.mem ((c.tc : Thread nD τ).loc main_v49)
        = Cert.LstmCell.cellArr (B0 m c) (B1 m c) (B2 m c) (B3 m c) (B4 m c) (B5 m c) (B6 m c) (B7 m c) (B11 m c) (B12 m c) (B13 m c)
      ∧ r.2.mem ((c.tc : Thread nD τ).loc main_v54)
        = Cert.LstmCell.stackArr (B0 m c) (B1 m c) (B2 m c) (B3 m c) (B4 m c) (B5 m c) (B6 m c) (B7 m c) (B8 m c) (B9 m c)
            (B10 m c) (B11 m c) (B12 m c) (B13 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c).1.trans (cell_eq (B0 m c) (B1 m c) (B2 m c) (B3 m c) (B4 m c) (B5 m c) (B6 m c) (B7 m c) (B11 m c) (B12 m c) (B13 m c)),
       (h c).2.1.trans ((val_main_v54_eq m c).trans
        (stack_eq (B0 m c) (B1 m c) (B2 m c) (B3 m c) (B4 m c) (B5 m c) (B6 m c) (B7 m c) (B8 m c) (B9 m c) (B10 m c)
          (B11 m c) (B12 m c) (B13 m c))),
       (h c).2.2⟩)
    (Cert.ReferenceIdeal.Value.run (F := Ideal) m ρ)

end Run

end Cert.ReferenceIdeal.RefValue

end
-- ==== Proof.lean ====
/-
  A single step of an LSTM cell: the tiled kernel against the plain formula.

  Both programs take the input `X : [512, 2048]`, the two stacked states `[2, 512, 2048]` and, for four gates, an
  input weight, a recurrent weight (each `[2048, 2048]`) and a bias `[2048]`. Each gate is
  `(X · W + state₀ · U) + b`; three gates pass through the sigmoid and the candidate through tanh; the new cell is
  `f · state₁ + i · candidate`, the new hidden state `g · tanh (cell)`; the results are the cell and the stack of the
  hidden state on the cell (`LstmCell`).

  The kernel walks sixteen blocks of 128 columns; at each it multiplies the whole input and the whole first state by a
  column block of every weight, adds a column block of each bias, and stores the cell's block once alone and once under
  the hidden state's block. Over the extended reals a block product is the same sum over the contracted axis as the
  whole product restricted to those columns, narrowing the operands' format changes nothing, and the kernel's sigmoid
  is by definition `1 / (1 + exp (-x))`, which the reference spells out. The two programs therefore compute the same
  expression at every entry, term for term: no rearrangement of sums or products is needed, and the finiteness of the
  inputs is never used.

  `KernelBlock` reads one grid point entry by entry, `KernelReads` says what each block holds, `KernelArrays` lifts
  the blocks to the whole arrays and restates the kernel's run; `RefCell` does the same for the reference. The three
  frames are the generated runs; the idealization rewrote nothing, so there is nothing to preserve.
-/
import proofs.«137886_j71270687310298_2_alg».proof.Defs
import proofs.«137886_j71270687310298_2_alg».proof.Proof.Gen.Kernel
import proofs.«137886_j71270687310298_2_alg».proof.Proof.Gen.Kernel.Skeleton
import proofs.«137886_j71270687310298_2_alg».proof.Proof.Gen.Kernel.Launch
import proofs.«137886_j71270687310298_2_alg».proof.Proof.Gen.Kernel.Points
import proofs.«137886_j71270687310298_2_alg».proof.Proof.Gen.Kernel.Frame
import proofs.«137886_j71270687310298_2_alg».proof.Proof.Gen.KernelIdeal
import proofs.«137886_j71270687310298_2_alg».proof.Proof.Gen.KernelIdeal.Skeleton
import proofs.«137886_j71270687310298_2_alg».proof.Proof.Gen.KernelIdeal.Launch
import proofs.«137886_j71270687310298_2_alg».proof.Proof.Gen.KernelIdeal.Points
import proofs.«137886_j71270687310298_2_alg».proof.Proof.Gen.KernelIdeal.Frame
import proofs.«137886_j71270687310298_2_alg».proof.Proof.Gen.ReferenceIdeal
import proofs.«137886_j71270687310298_2_alg».proof.Proof.Gen.Pre_finite_inputs
import proofs.«137886_j71270687310298_2_alg».proof.Proof.Gen.KernelIdeal.Value
import proofs.«137886_j71270687310298_2_alg».proof.Proof.Gen.ReferenceIdeal.Run
import proofs.«137886_j71270687310298_2_alg».proof.Proof.Gen.ReferenceIdeal.Read
import proofs.«137886_j71270687310298_2_alg».proof.Proof.LstmCell
import proofs.«137886_j71270687310298_2_alg».proof.Proof.KernelArrays
import proofs.«137886_j71270687310298_2_alg».proof.Proof.RefCell
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, the kernel ends with its two results at the cell array and the
    stack of `LstmCell` of its arguments, and the reference with its two results at the same two functions of its
    own arguments, which are the kernel's. -/
theorem algebraic : Cert.algebraic_KernelIdeal_ReferenceIdeal := by
  intro m ρ m' ρ' _ hagree
  refine ⟨fun c => Cert.KernelIdeal.Arrays.cells m c, fun c => Cert.KernelIdeal.Arrays.stacked m c,
    Cert.KernelIdeal.Arrays.run m ρ, ?_⟩
  refine (θ_run Cert.ReferenceIdeal.defs _ _).mono (fun _ h c => ?_) (Cert.ReferenceIdeal.RefValue.run m' ρ')
  obtain ⟨a0, a1, a2, a3, a4, a5, a6, a7, a8, a9, a10, a11, a12, a13⟩ := hagree c
  refine ⟨(h c).1.trans ?_, (h c).2.1.trans ?_, (h c).2.2⟩
  · show Cert.LstmCell.cellArr _ _ _ _ _ _ _ _ _ _ _ = Cert.LstmCell.cellArr _ _ _ _ _ _ _ _ _ _ _
    rw [show Cert.ReferenceIdeal.RefValue.B0 m' c = Cert.KernelIdeal.Reads.A0 m c from a0,
      show Cert.ReferenceIdeal.RefValue.B1 m' c = Cert.KernelIdeal.Reads.A1 m c from a1,
      show Cert.ReferenceIdeal.RefValue.B2 m' c = Cert.KernelIdeal.Reads.A2 m c from a2,
      show Cert.ReferenceIdeal.RefValue.B3 m' c = Cert.KernelIdeal.Reads.A3 m c from a3,
      show Cert.ReferenceIdeal.RefValue.B4 m' c = Cert.KernelIdeal.Reads.A4 m c from a4,
      show Cert.ReferenceIdeal.RefValue.B5 m' c = Cert.KernelIdeal.Reads.A5 m c from a5,
      show Cert.ReferenceIdeal.RefValue.B6 m' c = Cert.KernelIdeal.Reads.A6 m c from a6,
      show Cert.ReferenceIdeal.RefValue.B7 m' c = Cert.KernelIdeal.Reads.A7 m c from a7,
      show Cert.ReferenceIdeal.RefValue.B11 m' c = Cert.KernelIdeal.Reads.A11 m c from a11,
      show Cert.ReferenceIdeal.RefValue.B12 m' c = Cert.KernelIdeal.Reads.A12 m c from a12,
      show Cert.ReferenceIdeal.RefValue.B13 m' c = Cert.KernelIdeal.Reads.A13 m c from a13]
  · show Cert.LstmCell.stackArr _ _ _ _ _ _ _ _ _ _ _ _ _ _ = Cert.LstmCell.stackArr _ _ _ _ _ _ _ _ _ _ _ _ _ _
    rw [show Cert.ReferenceIdeal.RefValue.B0 m' c = Cert.KernelIdeal.Reads.A0 m c from a0,
      show Cert.ReferenceIdeal.RefValue.B1 m' c = Cert.KernelIdeal.Reads.A1 m c from a1,
      show Cert.ReferenceIdeal.RefValue.B2 m' c = Cert.KernelIdeal.Reads.A2 m c from a2,
      show Cert.ReferenceIdeal.RefValue.B3 m' c = Cert.KernelIdeal.Reads.A3 m c from a3,
      show Cert.ReferenceIdeal.RefValue.B4 m' c = Cert.KernelIdeal.Reads.A4 m c from a4,
      show Cert.ReferenceIdeal.RefValue.B5 m' c = Cert.KernelIdeal.Reads.A5 m c from a5,
      show Cert.ReferenceIdeal.RefValue.B6 m' c = Cert.KernelIdeal.Reads.A6 m c from a6,
      show Cert.ReferenceIdeal.RefValue.B7 m' c = Cert.KernelIdeal.Reads.A7 m c from a7,
      show Cert.ReferenceIdeal.RefValue.B8 m' c = Cert.KernelIdeal.Reads.A8 m c from a8,
      show Cert.ReferenceIdeal.RefValue.B9 m' c = Cert.KernelIdeal.Reads.A9 m c from a9,
      show Cert.ReferenceIdeal.RefValue.B10 m' c = Cert.KernelIdeal.Reads.A10 m c from a10,
      show Cert.ReferenceIdeal.RefValue.B11 m' c = Cert.KernelIdeal.Reads.A11 m c from a11,
      show Cert.ReferenceIdeal.RefValue.B12 m' c = Cert.KernelIdeal.Reads.A12 m c from a12,
      show Cert.ReferenceIdeal.RefValue.B13 m' c = Cert.KernelIdeal.Reads.A13 m c from a13]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
